-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg5 : FVec F S4096x4096 .f32) (main_arg6 : FVec F S4096x4096 .f32) (main_v12 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v12 main_v16
  let main_v18 : FVec F S4096x4096 .f32 := Host.absf main_arg5
  let main_cst_6 : FVec F S_ .f32 := constant S_ .f32 0x7F800000#32
  let main_v19 : FVec F S4096x4096 .f32 := broadcastInDim S4096x4096 ![] bcast_S_S4096x4096 main_cst_6
  let main_v20 : IVec S4096x4096 1 := cmpf .olt main_v18 main_v19
  let main_c_7 : IVec S_ 1 := constantI S_ 1 1#1
  let main_v21 : IVec S_ 1 := (fun x v => Host.reduce IntOp.andi x v reducesTo_S4096x4096_S_d0_1 h_S_) main_v20 main_c_7
  let main_v22 : IVec S_ 1 := andi main_v17 main_v21
  let main_v23 : FVec F S4096x4096 .f32 := Host.absf main_arg6
  let main_cst_8 : FVec F S_ .f32 := constant S_ .f32 0x7F800000#32
  let main_v24 : FVec F S4096x4096 .f32 := broadcastInDim S4096x4096 ![] bcast_S_S4096x4096 main_cst_8
  let main_v25 : IVec S4096x4096 1 := cmpf .olt main_v23 main_v24
  let main_c_9 : IVec S_ 1 := constantI S_ 1 1#1
  let main_v26 : IVec S_ 1 := (fun x v => Host.reduce IntOp.andi x v reducesTo_S4096x4096_S_d0_1 h_S_) main_v25 main_c_9
  let main_v27 : IVec S_ 1 := andi main_v22 main_v26
  main_v27

def fn {F : FTy → Type} [FloatOps F] (main_arg0 : FVec F S4x2048x4096 .f32) (main_arg1 : IVec S4096x4096 32) (main_arg2 : FVec F S_ .f32) (main_arg3 : FVec F S4096 .f32) (main_arg4 : FVec F S4096 .f32) (main_arg5 : FVec F S4096x4096 .f32) (main_arg6 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg3
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  let main_v13 : FVec F S4096 .f32 := Host.absf main_arg4
  let main_cst_4 : FVec F S_ .f32 := constant S_ .f32 0x7F800000#32
  let main_v14 : FVec F S4096 .f32 := broadcastInDim S4096 ![] bcast_S_S4096 main_cst_4
  let main_v15 : IVec S4096 1 := cmpf .olt main_v13 main_v14
  let main_c_5 : IVec S_ 1 := constantI S_ 1 1#1
  fn_part1 (F := F) main_arg5 main_arg6 main_v12 main_v15 main_c_5
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x1 : Shape := ⟨2, ![1, 1]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩

abbrev nBuf : Space → Nat
  | .hbm => 17
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S1x1, .f32⟩
  | .hbm, ⟨10, _⟩ => ⟨S1x4096, .f32⟩
  | .hbm, ⟨11, _⟩ => ⟨S1x4096, .f32⟩
  | .hbm, ⟨12, _⟩ => ⟨S8192x4096, .f32⟩
  | .hbm, ⟨13, _⟩ => ⟨S4096x4096, .f32⟩
  | .hbm, ⟨14, _⟩ => ⟨S4096x4096, .bf16⟩
  | .hbm, ⟨15, _⟩ => ⟨S8192x4096, .f32⟩
  | .hbm, ⟨16, _⟩ => ⟨S4x2048x4096, .f32⟩
  | .local _ .vmem, ⟨0, _⟩ => ⟨S1024x1024, .i32⟩
  | .local _ .vmem, ⟨1, _⟩ => ⟨S1024x1024, .i32⟩
  | .local _ .vmem, ⟨2, _⟩ => ⟨S1024x1024, .bf16⟩
  | .local _ .vmem, ⟨3, _⟩ => ⟨S1024x1024, .bf16⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S_S1x1 : S_.ShapeCasts S1x1
  shapeCasts_S4096_S1x4096 : S4096.ShapeCasts S1x4096
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1024 : S1x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .i32 = 32 ∨ (Rect.block (s := S4096x4096) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .f32 = 32 ∨ (Rect.block (s := S8192x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v5) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S_, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .i32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Cases0.lean ====
/-
  Region 0 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.Kernel.Launch
import proofs.«120424_j76063870812747_2_alg».proof.Proof.Gen.Kernel.Skeleton
import proofs.«120424_j76063870812747_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "k = 0": the accumulator is cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3": the output block is written. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 3 nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging memrefs and the accumulator -/

abbrev VO0 : View sig .tc .vmem S1024x1024 .f32 := (Memref.whole cc0_stg3_0 : Memref sig .tc .vmem S1024x1024 .f32).view
abbrev ms0_0 (t : Fin cfg0.N) : Memref sig .tc .vmem S1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0
abbrev VS0 : View sig .tc .vmem S1024x1024 .f32 := scM0.view

/-- The scoped buffers this region's body never touches: every scoped buffer that is neither a staging buffer of
    its windows nor its accumulator, each at some contents. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]
  try rfl

end Cert.Kernel.Hand

end
-- ==== Proof.K.Run0A.lean ====
/-
  Region 0, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.K.Cases0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨[], ?_, fun xi3 E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run0B.lean ====
/-
  Region 0, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.K.Cases0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨[], ?_, fun xi3 E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run0C.lean ====
/-
  Region 0, the body's run in one control case. At k = 3: the last block product is added and the output block is stored.
  The run is a triple over whole staging memrefs; the pieces the accumulator (and, at k = 3, the output buffer)
  ends with are its witness.
-/
import proofs.«120424_j76063870812747_2_alg».proof.Proof.K.Cases0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Reg0.lean ====
/-
  Region 0: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.K.Run0A
import proofs.«120424_j76063870812747_2_alg».proof.Proof.K.Run0B
import proofs.«120424_j76063870812747_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y
/-- What k = 0 leaves in the accumulator. -/
def sout0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y
/-- What k = 1, 2 leave in the accumulator, from what it held. -/
def sout0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).2.1)

theorem cover0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- What k = 3 leaves in the output buffer. -/
def out0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) : Vec F S1024x1024 .f32 :=
  VO0.read (Elt F) (VO0.writes (Elt F) VO0.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- and in the accumulator. -/
def sout0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

/-- Where k ≠ 3 the output buffer is not the body's: a placeholder nothing consults. -/
def idleOut0 : Vec F S1024x1024 .f32 := VO0.read (Elt F) VO0.junk

/-! ## After each point -/

/-- The output buffer and the accumulator after the body at position `n`, by recursion on the position. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h3 := (hcond0_1 ⟨0, hn⟩).mp h; (try dsimp only at h3); omega) (iblk0 V c 0 ⟨0, hn⟩) (iblk0 V c 1 ⟨0, hn⟩) (iblk0 V c 2 ⟨0, hn⟩))
  | n + 1, hn =>
    if h0 : (n + 1) % 4 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h3 := (hcond0_1 ⟨n + 1, hn⟩).mp h; (try dsimp only at h3 h0); omega) (iblk0 V c 0 ⟨n + 1, hn⟩) (iblk0 V c 1 ⟨n + 1, hn⟩) (iblk0 V c 2 ⟨n + 1, hn⟩))
    else if h1 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => by have h3 := (hcond0_1 t).mp h; (try dsimp only at h3 h0); omega) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 4 = 0
  · have hc1 : ¬cond0_1 (grid0.coords t) := fun h => by have h3 := (hcond0_1 t).mp h; omega
    rw [Dat.leavesExact_idle (dat0 V c) 3 t (idleAt0_3 t hc1) (noFlush0_3 t hc1)]
    rw [outsAt0_A V c t h0]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => by have h3 := (hcond0_1 t).mp h; (try dsimp only at h3 h0); omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => by have h3 := (hcond0_1 t).mp h; (try dsimp only at h3 h0); omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := (fun h => h1 ((hcond0_1 t).mp h))
      rw [Dat.leavesExact_idle (dat0 V c) 3 t (idleAt0_3 t hc1) (noFlush0_3 t hc1)]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.Cases1.lean ====
/-
  Region 1 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.Kernel.Launch
import proofs.«120424_j76063870812747_2_alg».proof.Proof.Gen.Kernel.Skeleton
import proofs.«120424_j76063870812747_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the output block is written. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 nothing is stored into the output window and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs and the accumulator -/

abbrev VO1 : View sig .tc .vmem S1024x1024 .bf16 := (Memref.whole cc1_stg3_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The scoped buffers this region's body never touches: every scoped buffer that is neither a staging buffer of
    its windows nor its accumulator, each at some contents. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]
  try rfl

end Cert.Kernel.Hand

end
-- ==== Proof.K.Run1A.lean ====
/-
  Region 1, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.K.Cases1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨[], ?_, fun xi3 E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run1B.lean ====
/-
  Region 1, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.K.Cases1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨[], ?_, fun xi3 E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run1C.lean ====
/-
  Region 1, the body's run in one control case. At k = 3: the last block product is added and the output block is stored.
  The run is a triple over whole staging memrefs; the pieces the accumulator (and, at k = 3, the output buffer)
  ends with are its witness.
-/
import proofs.«120424_j76063870812747_2_alg».proof.Proof.K.Cases1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨?_, ?_, fun E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Reg1.lean ====
/-
  Region 1: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.K.Run1A
import proofs.«120424_j76063870812747_2_alg».proof.Proof.K.Run1B
import proofs.«120424_j76063870812747_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What k = 0 leaves in the accumulator. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What k = 1, 2 leave in the accumulator, from what it held. -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What k = 3 leaves in the output buffer. -/
def out1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .bf16 :=
  VO1.read (Elt F) (VO1.writes (Elt F) VO1.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- and in the accumulator. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-- Where k ≠ 3 the output buffer is not the body's: a placeholder nothing consults. -/
def idleOut1 : Vec F S1024x1024 .bf16 := VO1.read (Elt F) VO1.junk

/-! ## After each point -/

/-- The output buffer and the accumulator after the body at position `n`, by recursion on the position. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h3 := (hcond1_1 ⟨0, hn⟩).mp h; (try dsimp only at h3); omega) (iblk1 V c 0 ⟨0, hn⟩) (iblk1 V c 1 ⟨0, hn⟩) (iblk1 V c 2 ⟨0, hn⟩))
  | n + 1, hn =>
    if h0 : (n + 1) % 4 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h3 := (hcond1_1 ⟨n + 1, hn⟩).mp h; (try dsimp only at h3 h0); omega) (iblk1 V c 0 ⟨n + 1, hn⟩) (iblk1 V c 1 ⟨n + 1, hn⟩) (iblk1 V c 2 ⟨n + 1, hn⟩))
    else if h1 : (n + 1) % 4 = 3 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => by have h3 := (hcond1_1 t).mp h; (try dsimp only at h3 h0); omega) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · have hc1 : ¬cond1_1 (grid1.coords t) := fun h => by have h3 := (hcond1_1 t).mp h; omega
    rw [Dat.leavesExact_idle (dat1 V c) 3 t (idleAt1_3 t hc1) (noFlush1_3 t hc1)]
    rw [outsAt1_A V c t h0]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => by have h3 := (hcond1_1 t).mp h; (try dsimp only at h3 h0); omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => by have h3 := (hcond1_1 t).mp h; (try dsimp only at h3 h0); omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := (fun h => h1 ((hcond1_1 t).mp h))
      rw [Dat.leavesExact_idle (dat1 V c) 3 t (idleAt1_3 t hc1) (noFlush1_3 t hc1)]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Cases2.lean ====
/-
  Region 2 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.Kernel.Launch
import proofs.«120424_j76063870812747_2_alg».proof.Proof.Gen.Kernel.Skeleton
import proofs.«120424_j76063870812747_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- "k = 0": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "k = 3": the output block is written. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 3 nothing is stored into the output window and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The staging memrefs and the accumulator -/

abbrev VO2 : View sig .tc .vmem S1024x1024 .f32 := (Memref.whole cc2_stg3_0 : Memref sig .tc .vmem S1024x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view

/-- The scoped buffers this region's body never touches: every scoped buffer that is neither a staging buffer of
    its windows nor its accumulator, each at some contents. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [bigSepL_singleton, scM2, owns_whole]
  try rfl

end Cert.Kernel.Hand

end
-- ==== Proof.K.Run2A.lean ====
/-
  Region 2, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.K.Cases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨[], ?_, fun xi3 E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run2B.lean ====
/-
  Region 2, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.K.Cases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨[], ?_, fun xi3 E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run2C.lean ====
/-
  Region 2, the body's run in one control case. At k = 3: the last block product is added and the output block is stored.
  The run is a triple over whole staging memrefs; the pieces the accumulator (and, at k = 3, the output buffer)
  ends with are its witness.
-/
import proofs.«120424_j76063870812747_2_alg».proof.Proof.K.Cases2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨?_, ?_, fun E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Reg2.lean ====
/-
  Region 2: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.K.Run2A
import proofs.«120424_j76063870812747_2_alg».proof.Proof.K.Run2B
import proofs.«120424_j76063870812747_2_alg».proof.Proof.K.Run2C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
/-- What k = 0 leaves in the accumulator. -/
def sout2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).2.1)

theorem scover2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
/-- What k = 1, 2 leave in the accumulator, from what it held. -/
def sout2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs0).2.1)

theorem cover2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y
/-- What k = 3 leaves in the output buffer. -/
def out2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) : Vec F S1024x1024 .f32 :=
  VO2.read (Elt F) (VO2.writes (Elt F) VO2.junk (kernelRun2_C c i arg3 harg3 arg4 harg4 arg5 harg5 arg6 harg6 arg7 harg7 hc0 hc1 x0 x1 x2 xs0).1)
theorem scover2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
/-- and in the accumulator. -/
def sout2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs0).2.1)

/-- Where k ≠ 3 the output buffer is not the body's: a placeholder nothing consults. -/
def idleOut2 : Vec F S1024x1024 .f32 := VO2.read (Elt F) VO2.junk

/-! ## After each point -/

/-- The output buffer and the accumulator after the body at position `n`, by recursion on the position. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => by have h3 := (hcond2_1 ⟨0, hn⟩).mp h; (try dsimp only at h3); omega) (iblk2 V c 0 ⟨0, hn⟩) (iblk2 V c 1 ⟨0, hn⟩) (iblk2 V c 2 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => by have h3 := (hcond2_1 ⟨n + 1, hn⟩).mp h; (try dsimp only at h3 h0); omega) (iblk2 V c 0 ⟨n + 1, hn⟩) (iblk2 V c 1 ⟨n + 1, hn⟩) (iblk2 V c 2 ⟨n + 1, hn⟩))
    else if h1 : (n + 1) % 4 = 3 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => by have h3 := (hcond2_1 t).mp h; (try dsimp only at h3 h0); omega) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 4 = 0
  · have hc1 : ¬cond2_1 (grid2.coords t) := fun h => by have h3 := (hcond2_1 t).mp h; omega
    rw [Dat.leavesExact_idle (dat2 V c) 3 t (idleAt2_3 t hc1) (noFlush2_3 t hc1)]
    rw [outsAt2_A V c t h0]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => by have h3 := (hcond2_1 t).mp h; (try dsimp only at h3 h0); omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => by have h3 := (hcond2_1 t).mp h; (try dsimp only at h3 h0); omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · have hc1 : ¬cond2_1 (grid2.coords t) := (fun h => h1 ((hcond2_1 t).mp h))
      rw [Dat.leavesExact_idle (dat2 V c) 3 t (idleAt2_3 t hc1) (noFlush2_3 t hc1)]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 128 := N_2; omega)

end Cert.Kernel.Hand

end
-- ==== Proof.K.Main.lean ====
/-
  The whole run of the program: the contents of the core's buffers at each boundary between its five items (a stretch
  of host operations, the three kernel regions, a last reshape), each region as a segment over the thread state "every
  unscoped buffer at the boundary's contents", and the run from the launch to the return, whose final memory holds every
  unscoped buffer at the last boundary's contents.
-/
import proofs.«120424_j76063870812747_2_alg».proof.Proof.K.Reg0
import proofs.«120424_j76063870812747_2_alg».proof.Proof.K.Reg1
import proofs.«120424_j76063870812747_2_alg».proof.Proof.K.Reg2
import proofs.«120424_j76063870812747_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wa0 : Dev nD → Valuation τ sig (Elt F) := fun c b => (s₀ m ρ).mem ((c : Dev nD), b)
/-- After the first host stretch (region 0's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b

/-- At region 0's exit: its arrays at what the pipeline's write-backs leave, every other buffer as entered. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- At region 1's exit: its arrays at what the pipeline's write-backs leave, every other buffer as entered. -/
def Wa3 (c : Dev nD) : Valuation τ sig (Elt F) :=
  Pipeline.withArrays spec1 c (Wa2 m ρ c) fun w => (dat1 (Va2 m ρ) c).arrAt w cfg1.N
theorem Wa3_arr (c : Dev nD) (w : Fin cfg1.W) :
    Wa3 m ρ c (Proc.devRef .tc (Pipeline.arrRef spec1 w)) = (dat1 (Va2 m ρ) c).arrAt w cfg1.N := by
  unfold Wa3; exact Pipeline.withArrays_arr spec1 launch1.win.arr_inj c _ _ w
theorem Wa3_of_ne (c : Dev nD) (b : Ref sig .tc) (hb : ∀ w, Pipeline.arrRef spec1 w ≠ b) :
    Wa3 m ρ c (Proc.devRef .tc b) = Wa2 m ρ c (Proc.devRef .tc b) := by
  unfold Wa3; exact Pipeline.withArrays_of_ne spec1 c _ _ b hb
abbrev Va3 : (c : Dev nD) → (b : Ref sig .tc) → Buf (Elt F) ((c : Thread nD τ).loc b) := fun c b => Wa3 m ρ c b
theorem hF1 (c : Dev nD) (w : Fin cfg1.W) : (dat1 (Va2 m ρ) c).arrAt w cfg1.N = Va3 m ρ c (Pipeline.arrRef spec1 w) :=
  (Wa3_arr m ρ c w).symm
theorem hrest1 (c : Dev nD) : ∀ b, b ∉ Finset.univ.image (Pipeline.arrRef spec1) → Va3 m ρ c b = Va2 m ρ c b :=
  fun b hb => Wa3_of_ne m ρ c b fun w e => hb (Finset.mem_image.mpr ⟨w, Finset.mem_univ _, e⟩)

/-- At region 2's exit: its arrays at what the pipeline's write-backs leave, every other buffer as entered. -/
def Wa4 (c : Dev nD) : Valuation τ sig (Elt F) :=
  Pipeline.withArrays spec2 c (Wa3 m ρ c) fun w => (dat2 (Va3 m ρ) c).arrAt w cfg2.N
theorem Wa4_arr (c : Dev nD) (w : Fin cfg2.W) :
    Wa4 m ρ c (Proc.devRef .tc (Pipeline.arrRef spec2 w)) = (dat2 (Va3 m ρ) c).arrAt w cfg2.N := by
  unfold Wa4; exact Pipeline.withArrays_arr spec2 launch2.win.arr_inj c _ _ w
theorem Wa4_of_ne (c : Dev nD) (b : Ref sig .tc) (hb : ∀ w, Pipeline.arrRef spec2 w ≠ b) :
    Wa4 m ρ c (Proc.devRef .tc b) = Wa3 m ρ c (Proc.devRef .tc b) := by
  unfold Wa4; exact Pipeline.withArrays_of_ne spec2 c _ _ b hb
abbrev Va4 : (c : Dev nD) → (b : Ref sig .tc) → Buf (Elt F) ((c : Thread nD τ).loc b) := fun c b => Wa4 m ρ c b
theorem hF2 (c : Dev nD) (w : Fin cfg2.W) : (dat2 (Va3 m ρ) c).arrAt w cfg2.N = Va4 m ρ c (Pipeline.arrRef spec2 w) :=
  (Wa4_arr m ρ c w).symm
theorem hrest2 (c : Dev nD) : ∀ b, b ∉ Finset.univ.image (Pipeline.arrRef spec2) → Va4 m ρ c b = Va3 m ρ c b :=
  fun b hb => Wa4_of_ne m ρ c b fun w e => hb (Finset.mem_image.mpr ⟨w, Finset.mem_univ _, e⟩)

/-- After the last host stretch: the final contents. -/
abbrev Wa5 : Dev nD → Valuation τ sig (Elt F) := fun c => StableHlo.after hostOps3 (Wa4 m ρ c)

/-! ## The arguments end as launched -/

theorem Wa5_main_arg0 (c : Dev nD) : Wa5 m ρ c (Proc.devRef .tc main_arg0) = m ((c : Thread nD τ).loc main_arg0) :=
  calc Wa5 m ρ c (Proc.devRef .tc main_arg0)
    _ = Wa4 m ρ c (Proc.devRef .tc main_arg0) := StableHlo.after_of_writes_sub hostOps3 _ hostOps3_writes (by decide)
    _ = Wa3 m ρ c (Proc.devRef .tc main_arg0) := Wa4_of_ne m ρ c main_arg0 (by decide)
    _ = Wa2 m ρ c (Proc.devRef .tc main_arg0) := Wa3_of_ne m ρ c main_arg0 (by decide)
    _ = Wa1 m ρ c (Proc.devRef .tc main_arg0) := Wa2_of_ne m ρ c main_arg0 (by decide)
    _ = Wa0 m ρ c (Proc.devRef .tc main_arg0) := StableHlo.after_of_writes_sub hostOps0 _ hostOps0_writes (by decide)
    _ = m ((c : Thread nD τ).loc main_arg0) := rfl
theorem Wa5_main_arg1 (c : Dev nD) : Wa5 m ρ c (Proc.devRef .tc main_arg1) = m ((c : Thread nD τ).loc main_arg1) :=
  calc Wa5 m ρ c (Proc.devRef .tc main_arg1)
    _ = Wa4 m ρ c (Proc.devRef .tc main_arg1) := StableHlo.after_of_writes_sub hostOps3 _ hostOps3_writes (by decide)
    _ = Wa3 m ρ c (Proc.devRef .tc main_arg1) := Wa4_of_ne m ρ c main_arg1 (by decide)
    _ = Wa2 m ρ c (Proc.devRef .tc main_arg1) := Wa3_of_ne m ρ c main_arg1 (by decide)
    _ = Wa1 m ρ c (Proc.devRef .tc main_arg1) := (Wa2_arr m ρ c 0).trans (((dat0 (Va1 m ρ) c).arrAt_in 0 rfl _).trans (A_eq0 (Va1 m ρ) c 0))
    _ = Wa0 m ρ c (Proc.devRef .tc main_arg1) := StableHlo.after_of_writes_sub hostOps0 _ hostOps0_writes (by decide)
    _ = m ((c : Thread nD τ).loc main_arg1) := rfl
theorem Wa5_main_arg2 (c : Dev nD) : Wa5 m ρ c (Proc.devRef .tc main_arg2) = m ((c : Thread nD τ).loc main_arg2) :=
  calc Wa5 m ρ c (Proc.devRef .tc main_arg2)
    _ = Wa4 m ρ c (Proc.devRef .tc main_arg2) := StableHlo.after_of_writes_sub hostOps3 _ hostOps3_writes (by decide)
    _ = Wa3 m ρ c (Proc.devRef .tc main_arg2) := Wa4_of_ne m ρ c main_arg2 (by decide)
    _ = Wa2 m ρ c (Proc.devRef .tc main_arg2) := Wa3_of_ne m ρ c main_arg2 (by decide)
    _ = Wa1 m ρ c (Proc.devRef .tc main_arg2) := Wa2_of_ne m ρ c main_arg2 (by decide)
    _ = Wa0 m ρ c (Proc.devRef .tc main_arg2) := StableHlo.after_of_writes_sub hostOps0 _ hostOps0_writes (by decide)
    _ = m ((c : Thread nD τ).loc main_arg2) := rfl
theorem Wa5_main_arg3 (c : Dev nD) : Wa5 m ρ c (Proc.devRef .tc main_arg3) = m ((c : Thread nD τ).loc main_arg3) :=
  calc Wa5 m ρ c (Proc.devRef .tc main_arg3)
    _ = Wa4 m ρ c (Proc.devRef .tc main_arg3) := StableHlo.after_of_writes_sub hostOps3 _ hostOps3_writes (by decide)
    _ = Wa3 m ρ c (Proc.devRef .tc main_arg3) := Wa4_of_ne m ρ c main_arg3 (by decide)
    _ = Wa2 m ρ c (Proc.devRef .tc main_arg3) := Wa3_of_ne m ρ c main_arg3 (by decide)
    _ = Wa1 m ρ c (Proc.devRef .tc main_arg3) := Wa2_of_ne m ρ c main_arg3 (by decide)
    _ = Wa0 m ρ c (Proc.devRef .tc main_arg3) := StableHlo.after_of_writes_sub hostOps0 _ hostOps0_writes (by decide)
    _ = m ((c : Thread nD τ).loc main_arg3) := rfl
theorem Wa5_main_arg4 (c : Dev nD) : Wa5 m ρ c (Proc.devRef .tc main_arg4) = m ((c : Thread nD τ).loc main_arg4) :=
  calc Wa5 m ρ c (Proc.devRef .tc main_arg4)
    _ = Wa4 m ρ c (Proc.devRef .tc main_arg4) := StableHlo.after_of_writes_sub hostOps3 _ hostOps3_writes (by decide)
    _ = Wa3 m ρ c (Proc.devRef .tc main_arg4) := Wa4_of_ne m ρ c main_arg4 (by decide)
    _ = Wa2 m ρ c (Proc.devRef .tc main_arg4) := Wa3_of_ne m ρ c main_arg4 (by decide)
    _ = Wa1 m ρ c (Proc.devRef .tc main_arg4) := Wa2_of_ne m ρ c main_arg4 (by decide)
    _ = Wa0 m ρ c (Proc.devRef .tc main_arg4) := StableHlo.after_of_writes_sub hostOps0 _ hostOps0_writes (by decide)
    _ = m ((c : Thread nD τ).loc main_arg4) := rfl
theorem Wa5_main_arg5 (c : Dev nD) : Wa5 m ρ c (Proc.devRef .tc main_arg5) = m ((c : Thread nD τ).loc main_arg5) :=
  calc Wa5 m ρ c (Proc.devRef .tc main_arg5)
    _ = Wa4 m ρ c (Proc.devRef .tc main_arg5) := StableHlo.after_of_writes_sub hostOps3 _ hostOps3_writes (by decide)
    _ = Wa3 m ρ c (Proc.devRef .tc main_arg5) := Wa4_of_ne m ρ c main_arg5 (by decide)
    _ = Wa2 m ρ c (Proc.devRef .tc main_arg5) := Wa3_of_ne m ρ c main_arg5 (by decide)
    _ = Wa1 m ρ c (Proc.devRef .tc main_arg5) := Wa2_of_ne m ρ c main_arg5 (by decide)
    _ = Wa0 m ρ c (Proc.devRef .tc main_arg5) := StableHlo.after_of_writes_sub hostOps0 _ hostOps0_writes (by decide)
    _ = m ((c : Thread nD τ).loc main_arg5) := rfl
theorem Wa5_main_arg6 (c : Dev nD) : Wa5 m ρ c (Proc.devRef .tc main_arg6) = m ((c : Thread nD τ).loc main_arg6) :=
  calc Wa5 m ρ c (Proc.devRef .tc main_arg6)
    _ = Wa4 m ρ c (Proc.devRef .tc main_arg6) := StableHlo.after_of_writes_sub hostOps3 _ hostOps3_writes (by decide)
    _ = Wa3 m ρ c (Proc.devRef .tc main_arg6) := Wa4_of_ne m ρ c main_arg6 (by decide)
    _ = Wa2 m ρ c (Proc.devRef .tc main_arg6) := Wa3_of_ne m ρ c main_arg6 (by decide)
    _ = Wa1 m ρ c (Proc.devRef .tc main_arg6) := Wa2_of_ne m ρ c main_arg6 (by decide)
    _ = Wa0 m ρ c (Proc.devRef .tc main_arg6) := StableHlo.after_of_writes_sub hostOps0 _ hostOps0_writes (by decide)
    _ = m ((c : Thread nD τ).loc main_arg6) := rfl

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Va1 m ρ) c
  | ⟨1, _⟩ => fun c => dat1 (Va2 m ρ) c
  | ⟨2, _⟩ => fun c => dat2 (Va3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wa5 m ρ c) ∗ ∃ r, prngReg c r)

/-! ## The regions as segments -/

set_option backward.isDefEq.respectTransparency.types false in
/-- Region 0 over the thread state: entered with every unscoped buffer at `Wa1`, left with them at `Wa2`. Its arrays
    are split out of the unscoped buffers and put back at their exit contents; the generator register and the scoped
    rest go into the region's invariant and come back; nothing is owed; the kernel has no semaphore of its own. -/
def regA0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va1 m ρ) c)
    unfold Pipeline.ΦA
    iintro ⟨Hp, -, Hr⟩
    isplitl [Hr]; · iexact Hr
    iexact Hp
  hout c := by
    rw [Pipeline.ownSems0_none]
    refine BIBase.Entails.trans (hout0 (Va1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wa2`, left with them at `Wa3`. Its arrays
    are split out of the unscoped buffers and put back at their exit contents; the generator register and the scoped
    rest go into the region's invariant and come back; nothing is owed; the kernel has no semaphore of its own. -/
def regA1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Va2 m ρ) c).loose
  hwaits := Pipeline.hwaits_of_owed_zero _ _ _ _ LH lvH 1 fun _ _ => rfl
  pre c := iprop(StableHlo.held (c : Thread nD τ) (Pipeline.ucRefs τ sig) (Wa2 m ρ c) ∗ RH c)
  post c := iprop(StableHlo.held (c : Thread nD τ) (Pipeline.ucRefs τ sig) (Wa3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Va2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Va2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Va2 m ρ) c)
    unfold Pipeline.ΦA
    iintro ⟨Hp, -, Hr⟩
    isplitl [Hr]; · iexact Hr
    iexact Hp
  hout c := by
    rw [Pipeline.ownSems0_none]
    refine BIBase.Entails.trans (hout1 (Va2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Va2 m ρ c) (Va3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wa3`, left with them at `Wa4`. Its arrays
    are split out of the unscoped buffers and put back at their exit contents; the generator register and the scoped
    rest go into the region's invariant and come back; nothing is owed; the kernel has no semaphore of its own. -/
def regA2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Va3 m ρ) c).loose
  hwaits := Pipeline.hwaits_of_owed_zero _ _ _ _ LH lvH 2 fun _ _ => rfl
  pre c := iprop(StableHlo.held (c : Thread nD τ) (Pipeline.ucRefs τ sig) (Wa3 m ρ c) ∗ RH c)
  post c := iprop(StableHlo.held (c : Thread nD τ) (Pipeline.ucRefs τ sig) (Wa4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Va3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Va3 m ρ) c)
    unfold Pipeline.ΦA
    iintro ⟨Hp, -, Hr⟩
    isplitl [Hr]; · iexact Hr
    iexact Hp
  hout c := by
    rw [Pipeline.ownSems0_none]
    refine BIBase.Entails.trans (hout2 (Va3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Va3 m ρ c) (Va4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (Wa0 m ρ)),
    .region (regA0 m ρ),
    .region (regA1 m ρ),
    .region (regA2 m ρ),
    .host (hsegH hostOps3 hostOps3_sub hostOps3_fresh (Wa4 m ρ)) ]
theorem main_runH (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents. -/
theorem run_mainH : θ_run defs (onTc (τ := τ) (main (F := F))) ⟨m, fun _ => 0, ρ⟩ (fun r => ∀ c : Dev nD,
      ∀ b ∈ Pipeline.ucRefs τ sig, r.2.mem (((c : Thread nD τ)).1, b) = Wa5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (Wa5 m ρ c) ∗ RH c) ⊢ _
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa5 m ρ c) s')
      isplitl [Hh] <;> iassumption)
    (hQ := fun s h c => h c)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_ucH main_arg0 (by decide))).trans (Wa5_main_arg0 m ρ c),
     (h c _ (mem_ucH main_arg1 (by decide))).trans (Wa5_main_arg1 m ρ c),
     (h c _ (mem_ucH main_arg2 (by decide))).trans (Wa5_main_arg2 m ρ c),
     (h c _ (mem_ucH main_arg3 (by decide))).trans (Wa5_main_arg3 m ρ c),
     (h c _ (mem_ucH main_arg4 (by decide))).trans (Wa5_main_arg4 m ρ c),
     (h c _ (mem_ucH main_arg5 (by decide))).trans (Wa5_main_arg5 m ρ c),
     (h c _ (mem_ucH main_arg6 (by decide))).trans (Wa5_main_arg6 m ρ c)⟩) (run_mainH m ρ)

end Cert.Kernel.Hand

end
-- ==== Proof.KI.Cases0.lean ====
/-
  Region 0 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.KernelIdeal.Launch
import proofs.«120424_j76063870812747_2_alg».proof.Proof.Gen.KernelIdeal.Skeleton
import proofs.«120424_j76063870812747_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "k = 0": the accumulator is cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3": the output block is written. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 3 nothing is stored into the output window and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging memrefs and the accumulator -/

abbrev VO0 : View sig .tc .vmem S1024x1024 .f32 := (Memref.whole cc0_stg3_0 : Memref sig .tc .vmem S1024x1024 .f32).view
abbrev ms0_0 (t : Fin cfg0.N) : Memref sig .tc .vmem S1024x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0
abbrev VS0 : View sig .tc .vmem S1024x1024 .f32 := scM0.view

/-- The scoped buffers this region's body never touches: every scoped buffer that is neither a staging buffer of
    its windows nor its accumulator, each at some contents. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]
  try rfl

end Cert.KernelIdeal.Hand

end
-- ==== Proof.KI.Run0A.lean ====
/-
  Region 0, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.KI.Cases0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨[], ?_, fun xi3 E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run0B.lean ====
/-
  Region 0, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.KI.Cases0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨[], ?_, fun xi3 E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run0C.lean ====
/-
  Region 0, the body's run in one control case. At k = 3: the last block product is added and the output block is stored.
  The run is a triple over whole staging memrefs; the pieces the accumulator (and, at k = 3, the output buffer)
  ends with are its witness.
-/
import proofs.«120424_j76063870812747_2_alg».proof.Proof.KI.Cases0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__dequant_matmul_kernel i arg3 harg3 arg4 harg4 arg5 harg5 arg6 harg6 arg7 harg7) K } := by
  refine ⟨?_, ?_, fun E K => ?run⟩
  case run =>
    simp only [cc0__dequant_matmul_kernel_eq_skeleton]; unfold cc0__dequant_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Reg0.lean ====
/-
  Region 0: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.KI.Run0A
import proofs.«120424_j76063870812747_2_alg».proof.Proof.KI.Run0B
import proofs.«120424_j76063870812747_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y
/-- What k = 0 leaves in the accumulator. -/
def sout0_A (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y
/-- What k = 1, 2 leave in the accumulator, from what it held. -/
def sout0_B (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).2.1)

theorem cover0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y
/-- What k = 3 leaves in the output buffer. -/
def out0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) : Vec F S1024x1024 .f32 :=
  VO0.read (Elt F) (VO0.writes (Elt F) VO0.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y
/-- and in the accumulator. -/
def sout0_C (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

/-- Where k ≠ 3 the output buffer is not the body's: a placeholder nothing consults. -/
def idleOut0 : Vec F S1024x1024 .f32 := VO0.read (Elt F) VO0.junk

/-! ## After each point -/

/-- The output buffer and the accumulator after the body at position `n`, by recursion on the position. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h3 := (hcond0_1 ⟨0, hn⟩).mp h; (try dsimp only at h3); omega) (iblk0 V c 0 ⟨0, hn⟩) (iblk0 V c 1 ⟨0, hn⟩) (iblk0 V c 2 ⟨0, hn⟩))
  | n + 1, hn =>
    if h0 : (n + 1) % 4 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h3 := (hcond0_1 ⟨n + 1, hn⟩).mp h; (try dsimp only at h3 h0); omega) (iblk0 V c 0 ⟨n + 1, hn⟩) (iblk0 V c 1 ⟨n + 1, hn⟩) (iblk0 V c 2 ⟨n + 1, hn⟩))
    else if h1 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => by have h3 := (hcond0_1 t).mp h; (try dsimp only at h3 h0); omega) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 4 = 0
  · have hc1 : ¬cond0_1 (grid0.coords t) := fun h => by have h3 := (hcond0_1 t).mp h; omega
    rw [Dat.leavesExact_idle (dat0 V c) 3 t (idleAt0_3 t hc1) (noFlush0_3 t hc1)]
    rw [outsAt0_A V c t h0]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => by have h3 := (hcond0_1 t).mp h; (try dsimp only at h3 h0); omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => by have h3 := (hcond0_1 t).mp h; (try dsimp only at h3 h0); omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := (fun h => h1 ((hcond0_1 t).mp h))
      rw [Dat.leavesExact_idle (dat0 V c) 3 t (idleAt0_3 t hc1) (noFlush0_3 t hc1)]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.Cases1.lean ====
/-
  Region 1 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.KernelIdeal.Launch
import proofs.«120424_j76063870812747_2_alg».proof.Proof.Gen.KernelIdeal.Skeleton
import proofs.«120424_j76063870812747_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the output block is written. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 nothing is stored into the output window and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs and the accumulator -/

abbrev VO1 : View sig .tc .vmem S1024x1024 .bf16 := (Memref.whole cc1_stg3_0 : Memref sig .tc .vmem S1024x1024 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view

/-- The scoped buffers this region's body never touches: every scoped buffer that is neither a staging buffer of
    its windows nor its accumulator, each at some contents. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the accumulator as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]
  try rfl

end Cert.KernelIdeal.Hand

end
-- ==== Proof.KI.Run1A.lean ====
/-
  Region 1, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.KI.Cases1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨[], ?_, fun xi3 E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run1B.lean ====
/-
  Region 1, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.KI.Cases1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .bf16)), { LS : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨[], ?_, fun xi3 E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run1C.lean ====
/-
  Region 1, the body's run in one control case. At k = 3: the last block product is added and the output block is stored.
  The run is a triple over whole staging memrefs; the pieces the accumulator (and, at k = 3, the output buffer)
  ends with are its witness.
-/
import proofs.«120424_j76063870812747_2_alg».proof.Proof.KI.Cases1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__transform_matmul_kernel i arg3 harg3 arg4 harg4 arg5 harg5 arg6 harg6 arg7 harg7) K } := by
  refine ⟨?_, ?_, fun E K => ?run⟩
  case run =>
    simp only [cc1__transform_matmul_kernel_eq_skeleton]; unfold cc1__transform_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Reg1.lean ====
/-
  Region 1: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.KI.Run1A
import proofs.«120424_j76063870812747_2_alg».proof.Proof.KI.Run1B
import proofs.«120424_j76063870812747_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What k = 0 leaves in the accumulator. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What k = 1, 2 leave in the accumulator, from what it held. -/
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What k = 3 leaves in the output buffer. -/
def out1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .bf16 :=
  VO1.read (Elt F) (VO1.writes (Elt F) VO1.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- and in the accumulator. -/
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-- Where k ≠ 3 the output buffer is not the body's: a placeholder nothing consults. -/
def idleOut1 : Vec F S1024x1024 .bf16 := VO1.read (Elt F) VO1.junk

/-! ## After each point -/

/-- The output buffer and the accumulator after the body at position `n`, by recursion on the position. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h3 := (hcond1_1 ⟨0, hn⟩).mp h; (try dsimp only at h3); omega) (iblk1 V c 0 ⟨0, hn⟩) (iblk1 V c 1 ⟨0, hn⟩) (iblk1 V c 2 ⟨0, hn⟩))
  | n + 1, hn =>
    if h0 : (n + 1) % 4 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h3 := (hcond1_1 ⟨n + 1, hn⟩).mp h; (try dsimp only at h3 h0); omega) (iblk1 V c 0 ⟨n + 1, hn⟩) (iblk1 V c 1 ⟨n + 1, hn⟩) (iblk1 V c 2 ⟨n + 1, hn⟩))
    else if h1 : (n + 1) % 4 = 3 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => by have h3 := (hcond1_1 t).mp h; (try dsimp only at h3 h0); omega) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 4 = 0
  · have hc1 : ¬cond1_1 (grid1.coords t) := fun h => by have h3 := (hcond1_1 t).mp h; omega
    rw [Dat.leavesExact_idle (dat1 V c) 3 t (idleAt1_3 t hc1) (noFlush1_3 t hc1)]
    rw [outsAt1_A V c t h0]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => by have h3 := (hcond1_1 t).mp h; (try dsimp only at h3 h0); omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => by have h3 := (hcond1_1 t).mp h; (try dsimp only at h3 h0); omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 : ¬cond1_1 (grid1.coords t) := (fun h => h1 ((hcond1_1 t).mp h))
      rw [Dat.leavesExact_idle (dat1 V c) 3 t (idleAt1_3 t hc1) (noFlush1_3 t hc1)]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Cases2.lean ====
/-
  Region 2 of the program: what the three control cases of its body share. The grid's last axis is the
  contraction step k of a blocked matrix product; the body clears its accumulator at k = 0, adds one block
  product at every k, and writes the output block at k = 3 only. Stated at a PARAMETER `V`, the contents of
  the core's buffers when the region is entered.
-/
import proofs.«120424_j76063870812747_2_alg».proof.Proof.Gen.KernelIdeal.Launch
import proofs.«120424_j76063870812747_2_alg».proof.Proof.Gen.KernelIdeal.Skeleton
import proofs.«120424_j76063870812747_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- "k = 0": the accumulator is cleared. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "k = 3": the output block is written. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 3 nothing is stored into the output window and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The staging memrefs and the accumulator -/

abbrev VO2 : View sig .tc .vmem S1024x1024 .f32 := (Memref.whole cc2_stg3_0 : Memref sig .tc .vmem S1024x1024 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S1024x1024 .f32 := Memref.whole cc2_scratch0
abbrev VS2 : View sig .tc .vmem S1024x1024 .f32 := scM2.view

/-- The scoped buffers this region's body never touches: every scoped buffer that is neither a staging buffer of
    its windows nor its accumulator, each at some contents. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list spec2 c [cc2_scratch0] (by decide) (by decide)]
  simp only [bigSepL_singleton, scM2, owns_whole]
  try rfl

end Cert.KernelIdeal.Hand

end
-- ==== Proof.KI.Run2A.lean ====
/-
  Region 2, the body's run in one control case. At k = 0: the accumulator is cleared, then one block product is added; the output buffer is handed back untouched.
  The run is a triple over whole staging memrefs; the pieces the accumulator (and, at k = 3, the output buffer)
  ends with are its witness.
-/
import proofs.«120424_j76063870812747_2_alg».proof.Proof.KI.Cases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 0: the accumulator is cleared, then one block product is added; the output buffer is handed back untouched. -/
noncomputable def kernelRun2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨[], ?_, fun xi3 E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run2B.lean ====
/-
  Region 2, the body's run in one control case. At k = 1, 2: one block product is added to what the accumulator held; the output buffer is handed back untouched.
  The run is a triple over whole staging memrefs; the pieces the accumulator (and, at k = 3, the output buffer)
  ends with are its witness.
-/
import proofs.«120424_j76063870812747_2_alg».proof.Proof.KI.Cases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 1, 2: one block product is added to what the accumulator held; the output buffer is handed back untouched. -/
noncomputable def kernelRun2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨[], ?_, fun xi3 E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run2C.lean ====
/-
  Region 2, the body's run in one control case. At k = 3: the last block product is added and the output block is stored.
  The run is a triple over whole staging memrefs; the pieces the accumulator (and, at k = 3, the output buffer)
  ends with are its witness.
-/
import proofs.«120424_j76063870812747_2_alg».proof.Proof.KI.Cases2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At k = 3: the last block product is added and the output block is stored. -/
noncomputable def kernelRun2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__final_matmul_kernel i arg3 harg3 arg4 harg4 arg5 harg5 arg6 harg6 arg7 harg7) K } := by
  refine ⟨?_, ?_, fun E K => ?run⟩
  case run =>
    simp only [cc2__final_matmul_kernel_eq_skeleton]; unfold cc2__final_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Reg2.lean ====
/-
  Region 2: what its accumulator and its output buffer hold after every grid point, the proof data of its
  pipeline, and the body obligation. The accumulator after point t is the block product of point t added to what the
  point before left (to the cleared accumulator when k = 0); the output buffer receives the accumulator when k = 3.
-/
import proofs.«120424_j76063870812747_2_alg».proof.Proof.KI.Run2A
import proofs.«120424_j76063870812747_2_alg».proof.Proof.KI.Run2B
import proofs.«120424_j76063870812747_2_alg».proof.Proof.KI.Run2C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces the accumulator ends with at k = 0 cover it. -/
theorem scover2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
/-- What k = 0 leaves in the accumulator. -/
def sout2_A (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).2.1)

theorem scover2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
/-- What k = 1, 2 leave in the accumulator, from what it held. -/
def sout2_B (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs0).2.1)

theorem cover2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y
/-- What k = 3 leaves in the output buffer. -/
def out2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) : Vec F S1024x1024 .f32 :=
  VO2.read (Elt F) (VO2.writes (Elt F) VO2.junk (kernelRun2_C c i arg3 harg3 arg4 harg4 arg5 harg5 arg6 harg6 arg7 harg7 hc0 hc1 x0 x1 x2 xs0).1)
theorem scover2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
/-- and in the accumulator. -/
def sout2_C (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs0).2.1)

/-- Where k ≠ 3 the output buffer is not the body's: a placeholder nothing consults. -/
def idleOut2 : Vec F S1024x1024 .f32 := VO2.read (Elt F) VO2.junk

/-! ## After each point -/

/-- The output buffer and the accumulator after the body at position `n`, by recursion on the position. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => by have h3 := (hcond2_1 ⟨0, hn⟩).mp h; (try dsimp only at h3); omega) (iblk2 V c 0 ⟨0, hn⟩) (iblk2 V c 1 ⟨0, hn⟩) (iblk2 V c 2 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => by have h3 := (hcond2_1 ⟨n + 1, hn⟩).mp h; (try dsimp only at h3 h0); omega) (iblk2 V c 0 ⟨n + 1, hn⟩) (iblk2 V c 1 ⟨n + 1, hn⟩) (iblk2 V c 2 ⟨n + 1, hn⟩))
    else if h1 : (n + 1) % 4 = 3 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => by have h3 := (hcond2_1 t).mp h; (try dsimp only at h3 h0); omega) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left, beside the untouched scoped rest and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position's residue mod 4 says which case the
    point is in; the invariant hands the body the accumulator at what the point before left (at anything at the first
    point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 4 = 0
  · have hc1 : ¬cond2_1 (grid2.coords t) := fun h => by have h3 := (hcond2_1 t).mp h; omega
    rw [Dat.leavesExact_idle (dat2 V c) 3 t (idleAt2_3 t hc1) (noFlush2_3 t hc1)]
    rw [outsAt2_A V c t h0]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => by have h3 := (hcond2_1 t).mp h; (try dsimp only at h3 h0); omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => by have h3 := (hcond2_1 t).mp h; (try dsimp only at h3 h0); omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · have hc1 : ¬cond2_1 (grid2.coords t) := (fun h => h1 ((hcond2_1 t).mp h))
      rw [Dat.leavesExact_idle (dat2 V c) 3 t (idleAt2_3 t hc1) (noFlush2_3 t hc1)]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Hand

end
-- ==== Proof.KI.Main.lean ====
/-
  The whole run of the program: the contents of the core's buffers at each boundary between its five items (a stretch
  of host operations, the three kernel regions, a last reshape), each region as a segment over the thread state "every
  unscoped buffer at the boundary's contents", and the run from the launch to the return, whose final memory holds every
  unscoped buffer at the last boundary's contents.
-/
import proofs.«120424_j76063870812747_2_alg».proof.Proof.KI.Reg0
import proofs.«120424_j76063870812747_2_alg».proof.Proof.KI.Reg1
import proofs.«120424_j76063870812747_2_alg».proof.Proof.KI.Reg2
import proofs.«120424_j76063870812747_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wa0 : Dev nD → Valuation τ sig (Elt F) := fun c b => (s₀ m ρ).mem ((c : Dev nD), b)
/-- After the first host stretch (region 0's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b

/-- At region 0's exit: its arrays at what the pipeline's write-backs leave, every other buffer as entered. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- At region 1's exit: its arrays at what the pipeline's write-backs leave, every other buffer as entered. -/
def Wa3 (c : Dev nD) : Valuation τ sig (Elt F) :=
  Pipeline.withArrays spec1 c (Wa2 m ρ c) fun w => (dat1 (Va2 m ρ) c).arrAt w cfg1.N
theorem Wa3_arr (c : Dev nD) (w : Fin cfg1.W) :
    Wa3 m ρ c (Proc.devRef .tc (Pipeline.arrRef spec1 w)) = (dat1 (Va2 m ρ) c).arrAt w cfg1.N := by
  unfold Wa3; exact Pipeline.withArrays_arr spec1 launch1.win.arr_inj c _ _ w
theorem Wa3_of_ne (c : Dev nD) (b : Ref sig .tc) (hb : ∀ w, Pipeline.arrRef spec1 w ≠ b) :
    Wa3 m ρ c (Proc.devRef .tc b) = Wa2 m ρ c (Proc.devRef .tc b) := by
  unfold Wa3; exact Pipeline.withArrays_of_ne spec1 c _ _ b hb
abbrev Va3 : (c : Dev nD) → (b : Ref sig .tc) → Buf (Elt F) ((c : Thread nD τ).loc b) := fun c b => Wa3 m ρ c b
theorem hF1 (c : Dev nD) (w : Fin cfg1.W) : (dat1 (Va2 m ρ) c).arrAt w cfg1.N = Va3 m ρ c (Pipeline.arrRef spec1 w) :=
  (Wa3_arr m ρ c w).symm
theorem hrest1 (c : Dev nD) : ∀ b, b ∉ Finset.univ.image (Pipeline.arrRef spec1) → Va3 m ρ c b = Va2 m ρ c b :=
  fun b hb => Wa3_of_ne m ρ c b fun w e => hb (Finset.mem_image.mpr ⟨w, Finset.mem_univ _, e⟩)

/-- At region 2's exit: its arrays at what the pipeline's write-backs leave, every other buffer as entered. -/
def Wa4 (c : Dev nD) : Valuation τ sig (Elt F) :=
  Pipeline.withArrays spec2 c (Wa3 m ρ c) fun w => (dat2 (Va3 m ρ) c).arrAt w cfg2.N
theorem Wa4_arr (c : Dev nD) (w : Fin cfg2.W) :
    Wa4 m ρ c (Proc.devRef .tc (Pipeline.arrRef spec2 w)) = (dat2 (Va3 m ρ) c).arrAt w cfg2.N := by
  unfold Wa4; exact Pipeline.withArrays_arr spec2 launch2.win.arr_inj c _ _ w
theorem Wa4_of_ne (c : Dev nD) (b : Ref sig .tc) (hb : ∀ w, Pipeline.arrRef spec2 w ≠ b) :
    Wa4 m ρ c (Proc.devRef .tc b) = Wa3 m ρ c (Proc.devRef .tc b) := by
  unfold Wa4; exact Pipeline.withArrays_of_ne spec2 c _ _ b hb
abbrev Va4 : (c : Dev nD) → (b : Ref sig .tc) → Buf (Elt F) ((c : Thread nD τ).loc b) := fun c b => Wa4 m ρ c b
theorem hF2 (c : Dev nD) (w : Fin cfg2.W) : (dat2 (Va3 m ρ) c).arrAt w cfg2.N = Va4 m ρ c (Pipeline.arrRef spec2 w) :=
  (Wa4_arr m ρ c w).symm
theorem hrest2 (c : Dev nD) : ∀ b, b ∉ Finset.univ.image (Pipeline.arrRef spec2) → Va4 m ρ c b = Va3 m ρ c b :=
  fun b hb => Wa4_of_ne m ρ c b fun w e => hb (Finset.mem_image.mpr ⟨w, Finset.mem_univ _, e⟩)

/-- After the last host stretch: the final contents. -/
abbrev Wa5 : Dev nD → Valuation τ sig (Elt F) := fun c => StableHlo.after hostOps3 (Wa4 m ρ c)

/-! ## The arguments end as launched -/

theorem Wa5_main_arg0 (c : Dev nD) : Wa5 m ρ c (Proc.devRef .tc main_arg0) = m ((c : Thread nD τ).loc main_arg0) :=
  calc Wa5 m ρ c (Proc.devRef .tc main_arg0)
    _ = Wa4 m ρ c (Proc.devRef .tc main_arg0) := StableHlo.after_of_writes_sub hostOps3 _ hostOps3_writes (by decide)
    _ = Wa3 m ρ c (Proc.devRef .tc main_arg0) := Wa4_of_ne m ρ c main_arg0 (by decide)
    _ = Wa2 m ρ c (Proc.devRef .tc main_arg0) := Wa3_of_ne m ρ c main_arg0 (by decide)
    _ = Wa1 m ρ c (Proc.devRef .tc main_arg0) := Wa2_of_ne m ρ c main_arg0 (by decide)
    _ = Wa0 m ρ c (Proc.devRef .tc main_arg0) := StableHlo.after_of_writes_sub hostOps0 _ hostOps0_writes (by decide)
    _ = m ((c : Thread nD τ).loc main_arg0) := rfl
theorem Wa5_main_arg1 (c : Dev nD) : Wa5 m ρ c (Proc.devRef .tc main_arg1) = m ((c : Thread nD τ).loc main_arg1) :=
  calc Wa5 m ρ c (Proc.devRef .tc main_arg1)
    _ = Wa4 m ρ c (Proc.devRef .tc main_arg1) := StableHlo.after_of_writes_sub hostOps3 _ hostOps3_writes (by decide)
    _ = Wa3 m ρ c (Proc.devRef .tc main_arg1) := Wa4_of_ne m ρ c main_arg1 (by decide)
    _ = Wa2 m ρ c (Proc.devRef .tc main_arg1) := Wa3_of_ne m ρ c main_arg1 (by decide)
    _ = Wa1 m ρ c (Proc.devRef .tc main_arg1) := (Wa2_arr m ρ c 0).trans (((dat0 (Va1 m ρ) c).arrAt_in 0 rfl _).trans (A_eq0 (Va1 m ρ) c 0))
    _ = Wa0 m ρ c (Proc.devRef .tc main_arg1) := StableHlo.after_of_writes_sub hostOps0 _ hostOps0_writes (by decide)
    _ = m ((c : Thread nD τ).loc main_arg1) := rfl
theorem Wa5_main_arg2 (c : Dev nD) : Wa5 m ρ c (Proc.devRef .tc main_arg2) = m ((c : Thread nD τ).loc main_arg2) :=
  calc Wa5 m ρ c (Proc.devRef .tc main_arg2)
    _ = Wa4 m ρ c (Proc.devRef .tc main_arg2) := StableHlo.after_of_writes_sub hostOps3 _ hostOps3_writes (by decide)
    _ = Wa3 m ρ c (Proc.devRef .tc main_arg2) := Wa4_of_ne m ρ c main_arg2 (by decide)
    _ = Wa2 m ρ c (Proc.devRef .tc main_arg2) := Wa3_of_ne m ρ c main_arg2 (by decide)
    _ = Wa1 m ρ c (Proc.devRef .tc main_arg2) := Wa2_of_ne m ρ c main_arg2 (by decide)
    _ = Wa0 m ρ c (Proc.devRef .tc main_arg2) := StableHlo.after_of_writes_sub hostOps0 _ hostOps0_writes (by decide)
    _ = m ((c : Thread nD τ).loc main_arg2) := rfl
theorem Wa5_main_arg3 (c : Dev nD) : Wa5 m ρ c (Proc.devRef .tc main_arg3) = m ((c : Thread nD τ).loc main_arg3) :=
  calc Wa5 m ρ c (Proc.devRef .tc main_arg3)
    _ = Wa4 m ρ c (Proc.devRef .tc main_arg3) := StableHlo.after_of_writes_sub hostOps3 _ hostOps3_writes (by decide)
    _ = Wa3 m ρ c (Proc.devRef .tc main_arg3) := Wa4_of_ne m ρ c main_arg3 (by decide)
    _ = Wa2 m ρ c (Proc.devRef .tc main_arg3) := Wa3_of_ne m ρ c main_arg3 (by decide)
    _ = Wa1 m ρ c (Proc.devRef .tc main_arg3) := Wa2_of_ne m ρ c main_arg3 (by decide)
    _ = Wa0 m ρ c (Proc.devRef .tc main_arg3) := StableHlo.after_of_writes_sub hostOps0 _ hostOps0_writes (by decide)
    _ = m ((c : Thread nD τ).loc main_arg3) := rfl
theorem Wa5_main_arg4 (c : Dev nD) : Wa5 m ρ c (Proc.devRef .tc main_arg4) = m ((c : Thread nD τ).loc main_arg4) :=
  calc Wa5 m ρ c (Proc.devRef .tc main_arg4)
    _ = Wa4 m ρ c (Proc.devRef .tc main_arg4) := StableHlo.after_of_writes_sub hostOps3 _ hostOps3_writes (by decide)
    _ = Wa3 m ρ c (Proc.devRef .tc main_arg4) := Wa4_of_ne m ρ c main_arg4 (by decide)
    _ = Wa2 m ρ c (Proc.devRef .tc main_arg4) := Wa3_of_ne m ρ c main_arg4 (by decide)
    _ = Wa1 m ρ c (Proc.devRef .tc main_arg4) := Wa2_of_ne m ρ c main_arg4 (by decide)
    _ = Wa0 m ρ c (Proc.devRef .tc main_arg4) := StableHlo.after_of_writes_sub hostOps0 _ hostOps0_writes (by decide)
    _ = m ((c : Thread nD τ).loc main_arg4) := rfl
theorem Wa5_main_arg5 (c : Dev nD) : Wa5 m ρ c (Proc.devRef .tc main_arg5) = m ((c : Thread nD τ).loc main_arg5) :=
  calc Wa5 m ρ c (Proc.devRef .tc main_arg5)
    _ = Wa4 m ρ c (Proc.devRef .tc main_arg5) := StableHlo.after_of_writes_sub hostOps3 _ hostOps3_writes (by decide)
    _ = Wa3 m ρ c (Proc.devRef .tc main_arg5) := Wa4_of_ne m ρ c main_arg5 (by decide)
    _ = Wa2 m ρ c (Proc.devRef .tc main_arg5) := Wa3_of_ne m ρ c main_arg5 (by decide)
    _ = Wa1 m ρ c (Proc.devRef .tc main_arg5) := Wa2_of_ne m ρ c main_arg5 (by decide)
    _ = Wa0 m ρ c (Proc.devRef .tc main_arg5) := StableHlo.after_of_writes_sub hostOps0 _ hostOps0_writes (by decide)
    _ = m ((c : Thread nD τ).loc main_arg5) := rfl
theorem Wa5_main_arg6 (c : Dev nD) : Wa5 m ρ c (Proc.devRef .tc main_arg6) = m ((c : Thread nD τ).loc main_arg6) :=
  calc Wa5 m ρ c (Proc.devRef .tc main_arg6)
    _ = Wa4 m ρ c (Proc.devRef .tc main_arg6) := StableHlo.after_of_writes_sub hostOps3 _ hostOps3_writes (by decide)
    _ = Wa3 m ρ c (Proc.devRef .tc main_arg6) := Wa4_of_ne m ρ c main_arg6 (by decide)
    _ = Wa2 m ρ c (Proc.devRef .tc main_arg6) := Wa3_of_ne m ρ c main_arg6 (by decide)
    _ = Wa1 m ρ c (Proc.devRef .tc main_arg6) := Wa2_of_ne m ρ c main_arg6 (by decide)
    _ = Wa0 m ρ c (Proc.devRef .tc main_arg6) := StableHlo.after_of_writes_sub hostOps0 _ hostOps0_writes (by decide)
    _ = m ((c : Thread nD τ).loc main_arg6) := rfl

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Va1 m ρ) c
  | ⟨1, _⟩ => fun c => dat1 (Va2 m ρ) c
  | ⟨2, _⟩ => fun c => dat2 (Va3 m ρ) c
abbrev 𝒱H : Variants := Variants.none
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wa5 m ρ c) ∗ ∃ r, prngReg c r)

/-! ## The regions as segments -/

set_option backward.isDefEq.respectTransparency.types false in
/-- Region 0 over the thread state: entered with every unscoped buffer at `Wa1`, left with them at `Wa2`. Its arrays
    are split out of the unscoped buffers and put back at their exit contents; the generator register and the scoped
    rest go into the region's invariant and come back; nothing is owed; the kernel has no semaphore of its own. -/
def regA0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RH c)
  post c := iprop(StableHlo.held (c : Thread nD τ) (Pipeline.ucRefs τ sig) (Wa2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va1 m ρ) c)
    unfold Pipeline.ΦA
    iintro ⟨Hp, -, Hr⟩
    isplitl [Hr]; · iexact Hr
    iexact Hp
  hout c := by
    rw [Pipeline.ownSems0_none]
    refine BIBase.Entails.trans (hout0 (Va1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `Wa2`, left with them at `Wa3`. Its arrays
    are split out of the unscoped buffers and put back at their exit contents; the generator register and the scoped
    rest go into the region's invariant and come back; nothing is owed; the kernel has no semaphore of its own. -/
def regA1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Va2 m ρ) c).loose
  hwaits := Pipeline.hwaits_of_owed_zero _ _ _ _ LH lvH 1 fun _ _ => rfl
  pre c := iprop(StableHlo.held (c : Thread nD τ) (Pipeline.ucRefs τ sig) (Wa2 m ρ c) ∗ RH c)
  post c := iprop(StableHlo.held (c : Thread nD τ) (Pipeline.ucRefs τ sig) (Wa3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Va2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Va2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Va2 m ρ) c)
    unfold Pipeline.ΦA
    iintro ⟨Hp, -, Hr⟩
    isplitl [Hr]; · iexact Hr
    iexact Hp
  hout c := by
    rw [Pipeline.ownSems0_none]
    refine BIBase.Entails.trans (hout1 (Va2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Va2 m ρ c) (Va3 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `Wa3`, left with them at `Wa4`. Its arrays
    are split out of the unscoped buffers and put back at their exit contents; the generator register and the scoped
    rest go into the region's invariant and come back; nothing is owed; the kernel has no semaphore of its own. -/
def regA2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Va3 m ρ) c).loose
  hwaits := Pipeline.hwaits_of_owed_zero _ _ _ _ LH lvH 2 fun _ _ => rfl
  pre c := iprop(StableHlo.held (c : Thread nD τ) (Pipeline.ucRefs τ sig) (Wa3 m ρ c) ∗ RH c)
  post c := iprop(StableHlo.held (c : Thread nD τ) (Pipeline.ucRefs τ sig) (Wa4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Va3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Va3 m ρ) c)
    unfold Pipeline.ΦA
    iintro ⟨Hp, -, Hr⟩
    isplitl [Hr]; · iexact Hr
    iexact Hp
  hout c := by
    rw [Pipeline.ownSems0_none]
    refine BIBase.Entails.trans (hout2 (Va3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Va3 m ρ c) (Va4 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .host (hsegH hostOps0 hostOps0_sub hostOps0_fresh (Wa0 m ρ)),
    .region (regA0 m ρ),
    .region (regA1 m ρ),
    .region (regA2 m ρ),
    .host (hsegH hostOps3 hostOps3_sub hostOps3_fresh (Wa4 m ρ)) ]
theorem main_runH (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final memory holds every unscoped buffer at the last boundary's contents. -/
theorem run_mainH : θ_run defs (onTc (τ := τ) (main (F := F))) ⟨m, fun _ => 0, ρ⟩ (fun r => ∀ c : Dev nD,
      ∀ b ∈ Pipeline.ucRefs τ sig, r.2.mem (((c : Thread nD τ)).1, b) = Wa5 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RH c)) (Tₙ := TnH m ρ)
    (hch := ⟨fun _ => .rfl, fun _ => .rfl, fun _ => .rfl, fun _ => .rfl, fun _ => .rfl, fun c => by
      show iprop(StableHlo.held (c : Thread nD τ) (Pipeline.ucRefs τ sig) (Wa5 m ρ c) ∗ RH c) ⊢ _
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa5 m ρ c) s')
      isplitl [Hh] <;> iassumption)
    (hQ := fun s h c => h c)

/-- THE FRAME: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_ucH main_arg0 (by decide))).trans (Wa5_main_arg0 m ρ c),
     (h c _ (mem_ucH main_arg1 (by decide))).trans (Wa5_main_arg1 m ρ c),
     (h c _ (mem_ucH main_arg2 (by decide))).trans (Wa5_main_arg2 m ρ c),
     (h c _ (mem_ucH main_arg3 (by decide))).trans (Wa5_main_arg3 m ρ c),
     (h c _ (mem_ucH main_arg4 (by decide))).trans (Wa5_main_arg4 m ρ c),
     (h c _ (mem_ucH main_arg5 (by decide))).trans (Wa5_main_arg5 m ρ c),
     (h c _ (mem_ucH main_arg6 (by decide))).trans (Wa5_main_arg6 m ρ c)⟩) (run_mainH m ρ)

end Cert.KernelIdeal.Hand

end
-- ==== Proof.Val.Spec.lean ====
/-
  The specification of the unit's function over curried literal coordinates, at the extended
  reals (every float format is `EReal` at the ideal instance).

  A 4096 x 4096 table `Q` of 32-bit integers is dequantised entrywise: an entry `q` becomes
  `((q / 15) * 2 - 1) * s` (`deq`).  The dequantised table is multiplied on the right by `Um`
  (`R2 i o' = sum_o deq (Q i o) s * Um o o'`); the result is contracted over its FIRST axis
  against `Vm` and each column is divided by `sw` (`Wt o' i' = (sum_i R2 i o' * Vm i i') / sw i'`);
  last, every row `X b t` is contracted against `Wt o'` and a bias is added
  (`Out b t o' = (sum_i' X b t i' * Wt o' i') + bi o'`).

  The literals `15`, `2`, `1` are kept as the extended reals their f32 words denote, and the
  quotients are the ideal instance's division, so that each definition is, on the nose, what a
  program's arithmetic at the ideal instance reduces to.
-/
import Idealize.ShloMosaic.PureOps.Ideal

noncomputable section

open scoped BigOperators

namespace Cert.Spec

open Idealize.ShloMosaic

/-- One dequantised weight: `((q / 15) * 2 - 1) * s`, the integer `q` read signed. -/
def deq (q : BitVec 32) (s : EReal) : EReal :=
  (Ideal.div (FloatOps.sitofp (F := Ideal) .f32 q) (Ideal.ofBits .f32 0x41700000#32)
      * Ideal.ofBits .f32 0x40000000#32 - Ideal.ofBits .f32 0x3F800000#32) * s

/-- The dequantised table times `Um`: `R2 i o' = sum_o deq (Q i o) s * Um o o'`. -/
def R2 (Q : Fin 4096 → Fin 4096 → BitVec 32) (s : EReal) (Um : Fin 4096 → Fin 4096 → EReal)
    (i o' : Fin 4096) : EReal :=
  ∑ o : Fin 4096, deq (Q i o) s * Um o o'

/-- The transformed weight: `Wt o' i' = (sum_i R2 i o' * Vm i i') / sw i'`. -/
def Wt (Q : Fin 4096 → Fin 4096 → BitVec 32) (s : EReal) (Um : Fin 4096 → Fin 4096 → EReal)
    (Vm : Fin 4096 → Fin 4096 → EReal) (sw : Fin 4096 → EReal) (o' i' : Fin 4096) : EReal :=
  Ideal.div (∑ i : Fin 4096, R2 Q s Um i o' * Vm i i') (sw i')

/-- The output: `Out b t o' = (sum_i' X b t i' * Wt o' i') + bi o'`. -/
def Out (X : Fin 4 → Fin 2048 → Fin 4096 → EReal) (Q : Fin 4096 → Fin 4096 → BitVec 32) (s : EReal)
    (Um : Fin 4096 → Fin 4096 → EReal) (Vm : Fin 4096 → Fin 4096 → EReal) (sw : Fin 4096 → EReal)
    (bi : Fin 4096 → EReal) (b : Fin 4) (t : Fin 2048) (o' : Fin 4096) : EReal :=
  (∑ i' : Fin 4096, X b t i' * Wt Q s Um Vm sw o' i') + bi o'

end Cert.Spec

end
-- ==== Proof.Val.Glue.lean ====
/-
  The kernel program's result at the extended reals, from the three regions' output arrays. The host operations around
  the regions are changes of format (the identity here) and reshapes; between the regions every buffer a region does not
  write keeps its contents; so the result, read at (b, t, o'), is the third region's array at row b·2048 + t, whose
  entries are sums over the second region's array, whose entries are quotients of sums over the first region's.
-/
import proofs.«120424_j76063870812747_2_alg».proof.Proof.KI.Main
import proofs.«120424_j76063870812747_2_alg».proof.Proof.Val.Spec
import Idealize.ShloMosaic.Lib.StableHlo.Run
import Idealize.ShloMosaic.Lib.ValueIdx
import Idealize.ShloMosaic.Lib.ValueLayout
import Idealize.ShloMosaic.Lib.Pipeline.Value

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The host operations before the regions -/

/-- U rounded to bf16 is U. -/
theorem v0_apply (c : Dev nD) (i : S4096x4096.Idx) :
    Wa1 m ρ c (Proc.devRef .tc main_v0) i = m ((c.tc : Thread nD τ).loc main_arg5) i := by
  show StableHlo.after hostOps0 (Wa0 m ρ c) (Proc.devRef .tc main_v0) i = _
  after_results
  rfl
/-- V rounded to bf16 is V. -/
theorem v1_apply (c : Dev nD) (i : S4096x4096.Idx) :
    Wa1 m ρ c (Proc.devRef .tc main_v1) i = m ((c.tc : Thread nD τ).loc main_arg6) i := by
  show StableHlo.after hostOps0 (Wa0 m ρ c) (Proc.devRef .tc main_v1) i = _
  after_results
  rfl
/-- The scale as a 1×1 array. -/
theorem v2_eq (c : Dev nD) :
    Wa1 m ρ c (Proc.devRef .tc main_v2) = shapeCast S1x1 (m ((c.tc : Thread nD τ).loc main_arg2)) shapeCasts_S_S1x1 := by
  show StableHlo.after hostOps0 (Wa0 m ρ c) (Proc.devRef .tc main_v2) = _
  after_results
  rfl
theorem v3_eq (c : Dev nD) :
    Wa1 m ρ c (Proc.devRef .tc main_v3) = shapeCast S1x4096 (m ((c.tc : Thread nD τ).loc main_arg3)) shapeCasts_S4096_S1x4096 := by
  show StableHlo.after hostOps0 (Wa0 m ρ c) (Proc.devRef .tc main_v3) = _
  after_results
  rfl
theorem v4_eq (c : Dev nD) :
    Wa1 m ρ c (Proc.devRef .tc main_v4) = shapeCast S1x4096 (m ((c.tc : Thread nD τ).loc main_arg4)) shapeCasts_S4096_S1x4096 := by
  show StableHlo.after hostOps0 (Wa0 m ρ c) (Proc.devRef .tc main_v4) = _
  after_results
  rfl
theorem v5_eq (c : Dev nD) :
    Wa1 m ρ c (Proc.devRef .tc main_v5) = shapeCast S8192x4096 (m ((c.tc : Thread nD τ).loc main_arg0)) shapeCasts_S4x2048x4096_S8192x4096 := by
  show StableHlo.after hostOps0 (Wa0 m ρ c) (Proc.devRef .tc main_v5) = _
  after_results
  rfl
theorem a1_eq (c : Dev nD) :
    Wa1 m ρ c (Proc.devRef .tc main_arg1) = m ((c.tc : Thread nD τ).loc main_arg1) :=
  StableHlo.after_of_writes_sub hostOps0 _ hostOps0_writes (by decide)
/-- The last reshape. -/
theorem v9_eq (c : Dev nD) :
    Wa5 m ρ c (Proc.devRef .tc main_v9) = shapeCast S4x2048x4096 (Wa4 m ρ c (Proc.devRef .tc main_v8)) shapeCasts_S8192x4096_S4x2048x4096 := by
  show StableHlo.after hostOps3 (Wa4 m ρ c) (Proc.devRef .tc main_v9) = _
  after_results
  rfl

/-- Row b·2048 + t of the flattened activations. -/
def flatRow (b : Fin 4) (t : Fin 2048) : Fin 8192 := ⟨b.val * 2048 + t.val, by omega⟩

theorem v2_apply (c : Dev nD) :
    Wa1 m ρ c (Proc.devRef .tc main_v2) (ix2 (0 : Fin 1) (0 : Fin 1)) = m ((c.tc : Thread nD τ).loc main_arg2) ix0 := by
  rw [v2_eq]
  unfold shapeCast
  exact congrArg _ (funext fun a => a.elim0)
theorem v3_apply (c : Dev nD) (i : Fin 4096) :
    Wa1 m ρ c (Proc.devRef .tc main_v3) (ix2 (0 : Fin 1) i) = m ((c.tc : Thread nD τ).loc main_arg3) (ix1 i) := by
  rw [v3_eq]
  exact shapeCast_a_1a_apply _ _ _ i
theorem v4_apply (c : Dev nD) (i : Fin 4096) :
    Wa1 m ρ c (Proc.devRef .tc main_v4) (ix2 (0 : Fin 1) i) = m ((c.tc : Thread nD τ).loc main_arg4) (ix1 i) := by
  rw [v4_eq]
  exact shapeCast_a_1a_apply _ _ _ i
theorem v5_apply (c : Dev nD) (b : Fin 4) (t : Fin 2048) (i : Fin 4096) :
    Wa1 m ρ c (Proc.devRef .tc main_v5) (ix2 (flatRow b t) i) = m ((c.tc : Thread nD τ).loc main_arg0) (ix3 b t i) := by
  rw [v5_eq]
  refine shapeCast_apply _ _ (ix2 (flatRow b t) i) (ix3 b t i) ?_
  show ((⟨3, ![4, 2048, 4096]⟩ : Shape).rowMajor (ix3 b t i)).val = ((⟨2, ![8192, 4096]⟩ : Shape).rowMajor (ix2 (flatRow b t) i)).val
  rw [Shape.rowMajor_val_three, Shape.rowMajor_val_two]
  rfl
theorem v9_apply (c : Dev nD) (b : Fin 4) (t : Fin 2048) (o : Fin 4096) :
    Wa5 m ρ c (Proc.devRef .tc main_v9) (ix3 b t o) = Wa4 m ρ c (Proc.devRef .tc main_v8) (ix2 (flatRow b t) o) := by
  rw [v9_eq]
  refine shapeCast_apply _ _ (ix3 b t o) (ix2 (flatRow b t) o) ?_
  show ((⟨2, ![8192, 4096]⟩ : Shape).rowMajor (ix2 (flatRow b t) o)).val = ((⟨3, ![4, 2048, 4096]⟩ : Shape).rowMajor (ix3 b t o)).val
  rw [Shape.rowMajor_val_three, Shape.rowMajor_val_two]
  rfl

end Cert.Val

end
-- ==== Proof.Val.Rd.lean ====
/-
  An entry of a rank-2 array of extended reals at its two coordinates.
-/
import Idealize.ShloMosaic.PureOps.Ideal
import Idealize.ShloMosaic.Lib.ValueIdx

noncomputable section

namespace Cert.Val

open Idealize.ShloMosaic Idealize.ShloMosaic.ValueIdx

/-- The entry (a, b) of a matrix of extended reals. -/
abbrev rd2 {n0 n1 : Nat} (x : (⟨2, ![n0, n1]⟩ : Shape).Idx → EReal) (a : Fin n0) (b : Fin n1) : EReal := x (ix2 a b)

end Cert.Val

end
-- ==== Proof.Val.Ref.lean ====
/-
  The reference program, read at one entry of its result, is the specification.

  The reference dequantises the TRANSPOSED integer table (`w0 (l, j) = deq (q (j, l))`), multiplies it on
  the left by the transposed `U` (`(U^T w0) (o, j) = sum_l U (l, o) * w0 (l, j)`), then on the right by `V`,
  divides column `k` by `scaleWH k`, contracts every row of `x` against the rows of the result and adds the
  bias.  Entry by entry these are the specification's `R2`, `Wt` and `Out`; the one difference is the order
  of the two factors inside the first sum, and multiplication of extended reals commutes.
-/
import proofs.«120424_j76063870812747_2_alg».proof.Proof.Gen.ReferenceIdeal.Read
import proofs.«120424_j76063870812747_2_alg».proof.Proof.Val.Spec

noncomputable section

open scoped BigOperators

namespace Cert.Val.Ref

open Idealize.ShloMosaic Idealize.ShloMosaic.ValueIdx Cert.ReferenceIdeal Cert.ReferenceIdeal.Gen Cert.ReferenceIdeal.Read

/-! ## The reference's index functions at coordinates -/

theorem idx_v0 (l j : Fin 4096) : idx_main_v0 (ix2 l j) = ix2 j l :=
  funext fun a => by match a with | ⟨0, _⟩ => rfl | ⟨1, _⟩ => rfl

theorem idx_v10 (o l : Fin 4096) : idx_main_v10 (ix2 o l) = ix2 l o :=
  funext fun a => by match a with | ⟨0, _⟩ => rfl | ⟨1, _⟩ => rfl

theorem lidx_v11 (o j l : Fin 4096) : lidx_main_v11 (ix2 o j) l = ix2 o l :=
  funext fun a => by match a with | ⟨0, _⟩ => rfl | ⟨1, _⟩ => rfl

theorem ridx_v11 (o j l : Fin 4096) : ridx_main_v11 (ix2 o j) l = ix2 l j :=
  funext fun a => by match a with | ⟨0, _⟩ => rfl | ⟨1, _⟩ => rfl

theorem lidx_v12 (o k j : Fin 4096) : lidx_main_v12 (ix2 o k) j = ix2 o j :=
  funext fun a => by match a with | ⟨0, _⟩ => rfl | ⟨1, _⟩ => rfl

theorem ridx_v12 (o k j : Fin 4096) : ridx_main_v12 (ix2 o k) j = ix2 j k :=
  funext fun a => by match a with | ⟨0, _⟩ => rfl | ⟨1, _⟩ => rfl

theorem idx_v14 (o k : Fin 4096) : idx_main_v14 (ix2 o k) = ix2 (0 : Fin 1) k :=
  funext fun a => by match a with | ⟨0, _⟩ => rfl | ⟨1, _⟩ => rfl

theorem idx_v13 (k : Fin 4096) : idx_main_v13 (ix2 (0 : Fin 1) k) = ix1 k :=
  funext fun a => by match a with | ⟨0, _⟩ => rfl

theorem lidx_v16 (b : Fin 4) (t : Fin 2048) (o k : Fin 4096) : lidx_main_v16 (ix3 b t o) k = ix3 b t k :=
  funext fun a => by match a with | ⟨0, _⟩ => rfl | ⟨1, _⟩ => rfl | ⟨2, _⟩ => rfl

theorem ridx_v16 (b : Fin 4) (t : Fin 2048) (o k : Fin 4096) : ridx_main_v16 (ix3 b t o) k = ix2 o k :=
  funext fun a => by match a with | ⟨0, _⟩ => rfl | ⟨1, _⟩ => rfl

theorem idx_v18 (b : Fin 4) (t : Fin 2048) (o : Fin 4096) :
    idx_main_v18 (ix3 b t o) = ix3 (0 : Fin 1) (0 : Fin 1) o :=
  funext fun a => by match a with | ⟨0, _⟩ => rfl | ⟨1, _⟩ => rfl | ⟨2, _⟩ => rfl

theorem idx_v17 (o : Fin 4096) : idx_main_v17 (ix3 (0 : Fin 1) (0 : Fin 1) o) = ix1 o :=
  funext fun a => by match a with | ⟨0, _⟩ => rfl

/-! ## The stages at coordinates -/

section Stages
variable (x0 : (⟨S4x2048x4096, .f32⟩ : BufTy).Contents (Elt Ideal))
  (x1 : (⟨S4096x4096, .i32⟩ : BufTy).Contents (Elt Ideal))
  (x2 : (⟨S_, .f32⟩ : BufTy).Contents (Elt Ideal))
  (x3 x4 : (⟨S4096, .f32⟩ : BufTy).Contents (Elt Ideal))
  (x5 x6 : (⟨S4096x4096, .f32⟩ : BufTy).Contents (Elt Ideal))

/-- The dequantised, transposed table: entry `(l, j)` is the dequantised integer at `(j, l)`. -/
theorem w0_apply (l j : Fin 4096) :
    val_main_v9 (F := Ideal) x1 x2 (ix2 l j) = Cert.Spec.deq (x1 (ix2 j l)) (x2 ix0) := by
  rw [val_main_v9_apply, val_main_v7_apply, val_main_v5_apply, val_main_v3_apply, val_main_v1_apply,
    val_main_v0_apply, val_main_v2_apply, val_main_cst_apply, val_main_v4_apply, val_main_cst_0_apply,
    val_main_v6_apply, val_main_cst_1_apply, val_main_v8_apply, idx_v0]
  rfl

/-- The first product: entry `(o, j)` is `R2 j o` (the factors of each term commuted). -/
theorem v11_is_R2 (o j : Fin 4096) :
    val_main_v11 (F := Ideal) x1 x2 x5 (ix2 o j)
      = Cert.Spec.R2 (fun i o => x1 (ix2 i o)) (x2 ix0) (fun a b => x5 (ix2 a b)) j o := by
  rw [val_main_v11_apply]
  unfold Cert.Spec.R2
  refine Finset.sum_congr rfl fun l _ => ?_
  rw [lidx_v11, ridx_v11, val_main_v10_apply, idx_v10, w0_apply, mul_comm]

/-- The transformed weight: entry `(o, k)` is `Wt o k`. -/
theorem v15_is_Wt (o k : Fin 4096) :
    val_main_v15 (F := Ideal) x1 x2 x3 x5 x6 (ix2 o k)
      = Cert.Spec.Wt (fun i o => x1 (ix2 i o)) (x2 ix0) (fun a b => x5 (ix2 a b)) (fun a b => x6 (ix2 a b))
          (fun i => x3 (ix1 i)) o k := by
  rw [val_main_v15_apply, val_main_v12_apply, val_main_v14_apply, val_main_v13_apply, idx_v14, idx_v13]
  unfold Cert.Spec.Wt
  show Ideal.div _ _ = Ideal.div _ _
  congr 1
  refine Finset.sum_congr rfl fun j _ => ?_
  rw [lidx_v12, ridx_v12, v11_is_R2]

/-- THE REFERENCE AT AN ENTRY is the specification's `Out`. -/
theorem ref_is_out (b : Fin 4) (t : Fin 2048) (o : Fin 4096) :
    Cert.ReferenceIdeal.Read.val_main_v19 (F := Ideal) x0 x1 x2 x3 x4 x5 x6 (ix3 b t o)
      = Cert.Spec.Out (fun b t i => x0 (ix3 b t i)) (fun i o => x1 (ix2 i o)) (x2 ix0)
          (fun a b => x5 (ix2 a b)) (fun a b => x6 (ix2 a b)) (fun i => x3 (ix1 i)) (fun o => x4 (ix1 o)) b t o := by
  rw [val_main_v19_apply, val_main_v16_apply, val_main_v18_apply, val_main_v17_apply, idx_v18, idx_v17]
  unfold Cert.Spec.Out
  show _ + _ = _ + _
  congr 1
  refine Finset.sum_congr rfl fun k _ => ?_
  rw [lidx_v16, ridx_v16, v15_is_Wt]

end Stages

end Cert.Val.Ref

end
-- ==== Proof.Val.Pay.lean ====
/-
  The arithmetic of the three tile programs, read at one entry of a 1024 x 1024 tile, at the
  extended reals.

  Each tile program does the same three things.  On its first step along the contracted grid axis
  it stores the all-zero tile.  On every step it adds to the accumulator tile the product of two
  operand tiles; the three programs differ in which axes of the operands are contracted:

    * the first contracts the second axis of the left operand with the first axis of the right
      one, the left operand being the dequantised integer tile:
        acc (a, b) + sum_c deq (q (a, c)) s * u (c, b);
    * the second contracts the FIRST axis of both operands:
        acc (a, b) + sum_c x (c, a) * y (c, b);
    * the third contracts the SECOND axis of both operands:
        acc (a, b) + sum_c x (a, c) * y (b, c).

  On its last step the second program divides the accumulator by a row vector broadcast along the
  rows, and the third adds a row vector broadcast along the rows.  Format changes are the identity
  at the extended reals, and a shape cast to the same shape is the identity.
-/
import proofs.«120424_j76063870812747_2_alg».proof.Proof.Gen.KernelIdeal.Skeleton
import proofs.«120424_j76063870812747_2_alg».proof.Proof.Val.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Val

open Idealize.ShloMosaic Idealize.ShloMosaic.ValueIdx Cert.KernelIdeal Cert.KernelIdeal.Gen

/-! ## The three products into the zero tile, at an entry -/

theorem mm10_lhs_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm10_lhs_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem mm10_rhs_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem mm10_rhs_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Contracting the second axis of `A` with the first axis of `B`: entry `(a, b)` of the product into the
    zero tile is `sum_c A (a, c) * B (c, b)`. -/
theorem mm10_apply {φ₁ φ₂ : FTy} (A : FVec Ideal S1024x1024 φ₁) (B : FVec Ideal S1024x1024 φ₂) (a b : Fin 1024) :
    matmul dot_S1024x1024_S1024x1024_S1024x1024_1_0_0_1_n_n none A B
        (constant (F := Ideal) S1024x1024 .f32 0x00000000#32) (ix2 a b)
      = ∑ c : Fin 1024, A (ix2 a c) * B (ix2 c b) := by
  show FloatOps.matmul _ none A B _ (ix2 a b) = _
  rw [Ideal.matmul_constant_zero_apply,
    ← Equiv.sum_comp (contrEquiv1 dot_S1024x1024_S1024x1024_S1024x1024_1_0_0_1_n_n 1024 rfl rfl).symm]
  refine Finset.sum_congr rfl fun c _ => ?_
  have hc := contrEquiv1_symm_val dot_S1024x1024_S1024x1024_S1024x1024_1_0_0_1_n_n 1024 rfl rfl c
  have el : dot_S1024x1024_S1024x1024_S1024x1024_1_0_0_1_n_n.lhsIdx (ix2 a b)
      ((contrEquiv1 dot_S1024x1024_S1024x1024_S1024x1024_1_0_0_1_n_n 1024 rfl rfl).symm c) = ix2 a c :=
    funext fun ax => Fin.ext (by
      match ax with
      | ⟨0, _⟩ => exact mm10_lhs_0 _ _
      | ⟨1, _⟩ => exact (mm10_lhs_1 _ _).trans hc)
  have er : dot_S1024x1024_S1024x1024_S1024x1024_1_0_0_1_n_n.rhsIdx (ix2 a b)
      ((contrEquiv1 dot_S1024x1024_S1024x1024_S1024x1024_1_0_0_1_n_n 1024 rfl rfl).symm c) = ix2 c b :=
    funext fun ax => Fin.ext (by
      match ax with
      | ⟨0, _⟩ => exact (mm10_rhs_0 _ _).trans hc
      | ⟨1, _⟩ => exact mm10_rhs_1 _ _)
  rw [el, er]

theorem mm00_lhs_0 (j : S1024x1024.Idx) (q : dot_S1024x1024_S1024x1024_S1024x1024_0_0_1_1_n_n.contr.Idx) :
    (dot_S1024x1024_S1024x1024_S1024x1024_0_0_1_1_n_n.lhsIdx j q 0).val = (q ⟨0, by decide⟩).val :=
  dot_S1024x1024_S1024x1024_S1024x1024_0_0_1_1_n_n.lhsIdx_val_of_single rfl j q
theorem mm00_lhs_1 (j : S1024x1024.Idx) (q : dot_S1024x1024_S1024x1024_S1024x1024_0_0_1_1_n_n.contr.Idx) :
    (dot_S1024x1024_S1024x1024_S1024x1024_0_0_1_1_n_n.lhsIdx j q 1).val = (j 0).val := by
  unfold DotDims.lhsIdx
  rw [dif_neg (show ¬(1 : Fin S1024x1024.rank) ∈ dot_S1024x1024_S1024x1024_S1024x1024_0_0_1_1_n_n.lhsBatch by decide),
    dif_pos (show (1 : Fin S1024x1024.rank) ∈ dot_S1024x1024_S1024x1024_S1024x1024_0_0_1_1_n_n.lhsNonContracting by decide)]
  rfl
theorem mm00_rhs_0 (j : S1024x1024.Idx) (q : dot_S1024x1024_S1024x1024_S1024x1024_0_0_1_1_n_n.contr.Idx) :
    (dot_S1024x1024_S1024x1024_S1024x1024_0_0_1_1_n_n.rhsIdx j q 0).val = (q ⟨0, by decide⟩).val :=
  dot_S1024x1024_S1024x1024_S1024x1024_0_0_1_1_n_n.rhsIdx_val_of_single rfl j q
theorem mm00_rhs_1 (j : S1024x1024.Idx) (q : dot_S1024x1024_S1024x1024_S1024x1024_0_0_1_1_n_n.contr.Idx) :
    (dot_S1024x1024_S1024x1024_S1024x1024_0_0_1_1_n_n.rhsIdx j q 1).val = (j 1).val := by
  unfold DotDims.rhsIdx
  rw [dif_neg (show ¬(1 : Fin S1024x1024.rank) ∈ dot_S1024x1024_S1024x1024_S1024x1024_0_0_1_1_n_n.rhsBatch by decide),
    dif_pos (show (1 : Fin S1024x1024.rank) ∈ dot_S1024x1024_S1024x1024_S1024x1024_0_0_1_1_n_n.rhsNonContracting by decide)]
  rfl

/-- Contracting the FIRST axis of both operands: entry `(a, b)` of the product into the zero tile is
    `sum_c A (c, a) * B (c, b)`. -/
theorem mm00_apply {φ₁ φ₂ : FTy} (A : FVec Ideal S1024x1024 φ₁) (B : FVec Ideal S1024x1024 φ₂) (a b : Fin 1024) :
    matmul dot_S1024x1024_S1024x1024_S1024x1024_0_0_1_1_n_n none A B
        (constant (F := Ideal) S1024x1024 .f32 0x00000000#32) (ix2 a b)
      = ∑ c : Fin 1024, A (ix2 c a) * B (ix2 c b) := by
  show FloatOps.matmul _ none A B _ (ix2 a b) = _
  rw [Ideal.matmul_constant_zero_apply,
    ← Equiv.sum_comp (contrEquiv1 dot_S1024x1024_S1024x1024_S1024x1024_0_0_1_1_n_n 1024 rfl rfl).symm]
  refine Finset.sum_congr rfl fun c _ => ?_
  have hc := contrEquiv1_symm_val dot_S1024x1024_S1024x1024_S1024x1024_0_0_1_1_n_n 1024 rfl rfl c
  have el : dot_S1024x1024_S1024x1024_S1024x1024_0_0_1_1_n_n.lhsIdx (ix2 a b)
      ((contrEquiv1 dot_S1024x1024_S1024x1024_S1024x1024_0_0_1_1_n_n 1024 rfl rfl).symm c) = ix2 c a :=
    funext fun ax => Fin.ext (by
      match ax with
      | ⟨0, _⟩ => exact (mm00_lhs_0 _ _).trans hc
      | ⟨1, _⟩ => exact mm00_lhs_1 _ _)
  have er : dot_S1024x1024_S1024x1024_S1024x1024_0_0_1_1_n_n.rhsIdx (ix2 a b)
      ((contrEquiv1 dot_S1024x1024_S1024x1024_S1024x1024_0_0_1_1_n_n 1024 rfl rfl).symm c) = ix2 c b :=
    funext fun ax => Fin.ext (by
      match ax with
      | ⟨0, _⟩ => exact (mm00_rhs_0 _ _).trans hc
      | ⟨1, _⟩ => exact mm00_rhs_1 _ _)
  rw [el, er]

theorem mm11_lhs_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem mm11_lhs_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem mm11_rhs_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem mm11_rhs_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Contracting the SECOND axis of both operands: entry `(a, b)` of the product into the zero tile is
    `sum_c A (a, c) * B (b, c)`. -/
theorem mm11_apply {φ₁ φ₂ : FTy} (A : FVec Ideal S1024x1024 φ₁) (B : FVec Ideal S1024x1024 φ₂) (a b : Fin 1024) :
    matmul dot_S1024x1024_S1024x1024_S1024x1024_1_1_0_0_n_n none A B
        (constant (F := Ideal) S1024x1024 .f32 0x00000000#32) (ix2 a b)
      = ∑ c : Fin 1024, A (ix2 a c) * B (ix2 b c) := by
  show FloatOps.matmul _ none A B _ (ix2 a b) = _
  rw [Ideal.matmul_constant_zero_apply,
    ← Equiv.sum_comp (contrEquiv1 dot_S1024x1024_S1024x1024_S1024x1024_1_1_0_0_n_n 1024 rfl rfl).symm]
  refine Finset.sum_congr rfl fun c _ => ?_
  have hc := contrEquiv1_symm_val dot_S1024x1024_S1024x1024_S1024x1024_1_1_0_0_n_n 1024 rfl rfl c
  have el : dot_S1024x1024_S1024x1024_S1024x1024_1_1_0_0_n_n.lhsIdx (ix2 a b)
      ((contrEquiv1 dot_S1024x1024_S1024x1024_S1024x1024_1_1_0_0_n_n 1024 rfl rfl).symm c) = ix2 a c :=
    funext fun ax => Fin.ext (by
      match ax with
      | ⟨0, _⟩ => exact mm11_lhs_0 _ _
      | ⟨1, _⟩ => exact (mm11_lhs_1 _ _).trans hc)
  have er : dot_S1024x1024_S1024x1024_S1024x1024_1_1_0_0_n_n.rhsIdx (ix2 a b)
      ((contrEquiv1 dot_S1024x1024_S1024x1024_S1024x1024_1_1_0_0_n_n 1024 rfl rfl).symm c) = ix2 b c :=
    funext fun ax => Fin.ext (by
      match ax with
      | ⟨0, _⟩ => exact mm11_rhs_0 _ _
      | ⟨1, _⟩ => exact (mm11_rhs_1 _ _).trans hc)
  rw [el, er]

/-! ## Broadcasts at an entry -/

/-- A `1 x 1` array broadcast to the tile reads its one entry everywhere. -/
theorem broadcastTo_11_apply {α : Type} (v : S1x1.Idx → α) (h : S1x1.Broadcasts S1024x1024) (a b : Fin 1024) :
    broadcastTo S1024x1024 v h (ix2 a b) = v (ix2 (0 : Fin 1) (0 : Fin 1)) :=
  broadcastTo_apply v h (ix2 a b) (ix2 (0 : Fin 1) (0 : Fin 1)) fun ax => by
    match ax with
    | ⟨0, _⟩ => rfl
    | ⟨1, _⟩ => rfl

/-! ## The payloads at an entry -/

/-- The tile stored on the first step is zero everywhere (first program). -/
theorem pay0z (a b : Fin 1024) : k0_pay1 (F := Ideal) (ix2 a b) = 0 := by
  unfold k0_pay1
  simp only [shapeCast_self]
  exact Ideal.ofBits_zero_f32

/-- The tile stored on the first step is zero everywhere (second program). -/
theorem pay1z (a b : Fin 1024) : k1_pay1 (F := Ideal) (ix2 a b) = 0 := by
  unfold k1_pay1
  simp only [shapeCast_self]
  exact Ideal.ofBits_zero_f32

/-- The tile stored on the first step is zero everywhere (third program). -/
theorem pay2z (a b : Fin 1024) : k2_pay1 (F := Ideal) (ix2 a b) = 0 := by
  unfold k2_pay1
  simp only [shapeCast_self]
  exact Ideal.ofBits_zero_f32

/-- First program, every step: the accumulator plus the dequantised integer tile times the right tile. -/
theorem pay0 (v3 : Vec Ideal S1024x1024 .i32) (v11 : Vec Ideal S1x1 .f32) (v16 : Vec Ideal S1024x1024 .f32)
    (v17 : Vec Ideal S1024x1024 .bf16) (a b : Fin 1024) :
    k0_pay2 (F := Ideal) v3 v11 v16 v17 (ix2 a b)
      = v16 (ix2 a b) + ∑ c : Fin 1024,
          Cert.Spec.deq (v3 (ix2 a c)) (v11 (ix2 (0 : Fin 1) (0 : Fin 1))) * v17 (ix2 c b) := by
  unfold k0_pay2
  simp only [shapeCast_self]
  rw [addf_apply, mm10_apply]
  refine congrArg (v16 (ix2 a b) + ·) (Finset.sum_congr rfl fun c _ => ?_)
  rw [truncf_apply, mulf_apply, broadcastTo_11_apply]
  rfl

/-- Second program, every step: the accumulator plus the product contracting the first axis of both tiles. -/
theorem pay1 (v3 : Vec Ideal S1024x1024 .f32) (v6 : Vec Ideal S1024x1024 .f32) (v7 : Vec Ideal S1024x1024 .bf16)
    (a b : Fin 1024) :
    k1_pay2 (F := Ideal) v3 v6 v7 (ix2 a b) = v6 (ix2 a b) + ∑ c : Fin 1024, v3 (ix2 c a) * v7 (ix2 c b) := by
  unfold k1_pay2
  simp only [shapeCast_self]
  rw [addf_apply, mm00_apply]
  rfl

/-- Second program, last step: the accumulator divided by the row vector, column by column. -/
theorem pay1d (v17 : Vec Ideal S1024x1024 .f32) (v18 : Vec Ideal S1x1024 .f32) (a b : Fin 1024) :
    k1_pay3 (F := Ideal) v17 v18 (ix2 a b) = Ideal.div (v17 (ix2 a b)) (v18 (ix2 (0 : Fin 1) b)) := by
  unfold k1_pay3
  simp only [shapeCast_self]
  rw [truncf_apply, divf_apply, broadcastTo_1b_ab_apply]

/-- Third program, every step: the accumulator plus the product contracting the second axis of both tiles. -/
theorem pay2 (v3 : Vec Ideal S1024x1024 .f32) (v6 : Vec Ideal S1024x1024 .f32) (v7 : Vec Ideal S1024x1024 .bf16)
    (a b : Fin 1024) :
    k2_pay2 (F := Ideal) v3 v6 v7 (ix2 a b) = v6 (ix2 a b) + ∑ c : Fin 1024, v3 (ix2 a c) * v7 (ix2 b c) := by
  unfold k2_pay2
  simp only [shapeCast_self]
  rw [addf_apply, mm11_apply]
  rfl

/-- Third program, last step: the accumulator plus the row vector, column by column. -/
theorem pay2b (v17 : Vec Ideal S1024x1024 .f32) (v18 : Vec Ideal S1x1024 .f32) (a b : Fin 1024) :
    k2_pay3 (F := Ideal) v17 v18 (ix2 a b) = v17 (ix2 a b) + v18 (ix2 (0 : Fin 1) b) := by
  unfold k2_pay3
  simp only [shapeCast_self]
  rw [addf_apply, broadcastTo_1b_ab_apply]

end Cert.Val

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.LibSumBlocks.lean ====
/-
  Regrouping finite sums over 4096 rows and 4096 columns by blocks, in any additive commutative
  monoid.

  Columns: every column index below 4096 is `j * 1024 + k` for exactly one block `j < 4` and one
  offset `k < 1024` (`col j k`), so a sum over the 4096 columns is the sum of the four consecutive
  blocks of 1024 columns (`sum_cols`, `sum_four_blocks`).

  Rows: every row index below 4096 is `o * 512 + g * 8 + s` for exactly one triple `o < 8`,
  `g < 64`, `s < 8` (`row3 o g s`).  Pairing the outer and the inner digit into `r = o * 8 + s < 64`
  gives `row r g`, and a sum over the 4096 rows is the double sum over `r` and `g` (`sum_rows`).

  Together: the double sum over rows and columns, with `r` and the column offset outside, the four
  column blocks written out, and `g` innermost (`sum_rows_cols`).
-/
import Mathlib.Algebra.BigOperators.Fin
import proofs.«120424_j76063870812747_2_alg».proof.Proof.LibSumDigits

open scoped BigOperators

namespace Cert.SumBlocks

variable {M : Type*} [AddCommMonoid M]

/-- The column `j * 1024 + k` of 4096, for the block `j < 4` and the offset `k < 1024`. -/
def col (j : Fin 4) (k : Fin 1024) : Fin 4096 :=
  ⟨j.val * 1024 + k.val, by have := j.isLt; have := k.isLt; omega⟩

/-- The row `(r / 8) * 512 + g * 8 + r % 8` of 4096, for `r < 64` and `g < 64`: with `r = o * 8 + s`,
    `o < 8`, `s < 8`, this is the row `o * 512 + g * 8 + s`. -/
def row (r : Fin 64) (g : Fin 64) : Fin 4096 :=
  ⟨(r.val / 8) * 512 + g.val * 8 + r.val % 8, by have := r.isLt; have := g.isLt; omega⟩

/-- The row `o * 512 + g * 8 + s` of 4096, for the digits `o < 8`, `g < 64`, `s < 8`. -/
def row3 (o : Fin 8) (g : Fin 64) (s : Fin 8) : Fin 4096 :=
  ⟨o.val * 512 + g.val * 8 + s.val, by have := o.isLt; have := g.isLt; have := s.isLt; omega⟩

/-- With `r = o * 8 + s`, `o < 8`, `s < 8`, the row `row r g` is `o * 512 + g * 8 + s`: the quotient
    of `r` by 8 is `o` and the remainder is `s`. -/
theorem row_pair (o : Fin 8) (s : Fin 8) (g : Fin 64) (h : o.val * 8 + s.val < 64) :
    row ⟨o.val * 8 + s.val, h⟩ g = row3 o g s := by
  have := o.isLt
  have := s.isLt
  apply Fin.ext
  simp only [row, row3]
  omega

/-- A sum over 4096 columns is the double sum over the block `j < 4` and the offset `k < 1024` of
    the column `j * 1024 + k`. -/
theorem sum_cols (f : Fin 4096 → M) :
    ∑ kk : Fin 4096, f kk = ∑ j : Fin 4, ∑ k : Fin 1024, f (col j k) := by
  rw [Cert.SumDigits.sum_fin_mul (m := 4) (n := 1024) rfl f]
  exact Finset.sum_congr rfl fun j _ => Finset.sum_congr rfl fun k _ => rfl

/-- A sum over 4096 columns is the sum of the four consecutive blocks of 1024 columns, associated
    to the left. -/
theorem sum_four_blocks (f : Fin 4096 → M) :
    ∑ kk : Fin 4096, f kk
      = ((∑ k : Fin 1024, f (col 0 k) + ∑ k : Fin 1024, f (col 1 k))
          + ∑ k : Fin 1024, f (col 2 k)) + ∑ k : Fin 1024, f (col 3 k) := by
  rw [sum_cols, Fin.sum_univ_four]

/-- A sum over 4096 rows is the triple sum over the digits `o < 8`, `g < 64`, `s < 8` of the row
    `o * 512 + g * 8 + s = (o * 64 + g) * 8 + s`. -/
theorem sum_rows3 (h : Fin 4096 → M) :
    ∑ R : Fin 4096, h R = ∑ o : Fin 8, ∑ g : Fin 64, ∑ s : Fin 8, h (row3 o g s) := by
  rw [Cert.SumDigits.sum_fin_mul (m := 512) (n := 8) rfl h,
    Cert.SumDigits.sum_fin_mul (m := 8) (n := 64) rfl
      (fun p : Fin 512 => ∑ s : Fin 8, h ⟨p.val * 8 + s.val, Cert.SumDigits.digits_lt p s⟩)]
  refine Finset.sum_congr rfl fun o _ => Finset.sum_congr rfl fun g _ =>
    Finset.sum_congr rfl fun s _ => ?_
  congr 1
  apply Fin.ext
  simp only [row3]
  omega

/-- A sum over 4096 rows is the double sum over `r < 64` and `g < 64` of the row
    `(r / 8) * 512 + g * 8 + r % 8`. -/
theorem sum_rows (h : Fin 4096 → M) :
    ∑ R : Fin 4096, h R = ∑ r : Fin 64, ∑ g : Fin 64, h (row r g) := by
  rw [sum_rows3,
    Cert.SumDigits.sum_fin_mul (m := 8) (n := 8) rfl (fun r : Fin 64 => ∑ g : Fin 64, h (row r g))]
  refine Finset.sum_congr rfl fun o _ => ?_
  rw [Finset.sum_comm]
  refine Finset.sum_congr rfl fun s _ => Finset.sum_congr rfl fun g _ => ?_
  rw [row_pair]

/-- The double sum of `D` over 4096 rows and 4096 columns, regrouped: rows as
    `(o, g, s) ↦ o * 512 + g * 8 + s` with `o < 8`, `g < 64`, `s < 8`, listed by the pair
    `r = o * 8 + s < 64` outside and `g` inside; columns as `(j, l) ↦ j * 1024 + l` with the four
    `j` written out and associated to the left. -/
theorem sum_rows_cols (D : Fin 4096 → Fin 4096 → M) :
    ∑ r : Fin 64, ∑ l : Fin 1024,
        (((∑ g : Fin 64, D (row r g) (col 0 l) + ∑ g : Fin 64, D (row r g) (col 1 l))
            + ∑ g : Fin 64, D (row r g) (col 2 l)) + ∑ g : Fin 64, D (row r g) (col 3 l))
      = ∑ R : Fin 4096, ∑ Cc : Fin 4096, D R Cc := by
  symm
  calc ∑ R : Fin 4096, ∑ Cc : Fin 4096, D R Cc
      = ∑ r : Fin 64, ∑ g : Fin 64, ∑ Cc : Fin 4096, D (row r g) Cc :=
        sum_rows fun R => ∑ Cc : Fin 4096, D R Cc
    _ = ∑ r : Fin 64, ∑ g : Fin 64, ∑ l : Fin 1024,
          (((D (row r g) (col 0 l) + D (row r g) (col 1 l)) + D (row r g) (col 2 l))
            + D (row r g) (col 3 l)) := by
        refine Finset.sum_congr rfl fun r _ => Finset.sum_congr rfl fun g _ => ?_
        rw [sum_cols, Finset.sum_comm]
        exact Finset.sum_congr rfl fun l _ => Fin.sum_univ_four _
    _ = ∑ r : Fin 64, ∑ l : Fin 1024, ∑ g : Fin 64,
          (((D (row r g) (col 0 l) + D (row r g) (col 1 l)) + D (row r g) (col 2 l))
            + D (row r g) (col 3 l)) :=
        Finset.sum_congr rfl fun r _ => Finset.sum_comm
    _ = ∑ r : Fin 64, ∑ l : Fin 1024,
          (((∑ g : Fin 64, D (row r g) (col 0 l) + ∑ g : Fin 64, D (row r g) (col 1 l))
              + ∑ g : Fin 64, D (row r g) (col 2 l)) + ∑ g : Fin 64, D (row r g) (col 3 l)) := by
        refine Finset.sum_congr rfl fun r _ => Finset.sum_congr rfl fun l _ => ?_
        rw [Finset.sum_add_distrib, Finset.sum_add_distrib, Finset.sum_add_distrib]

end Cert.SumBlocks
-- ==== Proof.Val.Sums.lean ====
/-
  A sum over 4096 indices as four consecutive blocks of 1024, accumulated from zero.

  Every index below 4096 is `k * 1024 + c` for exactly one block `k < 4` and one offset
  `c < 1024` (`blk k c`).  A sum over the 4096 indices is therefore what an accumulator that starts
  at zero holds after the four block sums have been added to it one after the other, in any
  additive commutative monoid.
-/
import Mathlib.Algebra.BigOperators.Fin
import proofs.«120424_j76063870812747_2_alg».proof.Proof.LibSumBlocks

open scoped BigOperators

namespace Cert.Spec

/-- The index `k * 1024 + c` of 4096, for the block `k < 4` and the offset `c < 1024`. -/
def blk (k : Fin 4) (c : Fin 1024) : Fin 4096 := ⟨k.val * 1024 + c.val, by omega⟩

theorem blk_val (k : Fin 4) (c : Fin 1024) : (blk k c).val = k.val * 1024 + c.val := rfl

/-- A sum over 4096 indices is the double sum over the block and the offset. -/
theorem sum_blk {M : Type*} [AddCommMonoid M] (f : Fin 4096 → M) :
    ∑ c : Fin 4096, f c = ∑ k : Fin 4, ∑ c : Fin 1024, f (blk k c) :=
  Cert.SumBlocks.sum_cols f

/-- A sum over 4096 indices is zero plus the four consecutive block sums, added in order. -/
theorem sum_four_blk {M : Type*} [AddCommMonoid M] (f : Fin 4096 → M) :
    ∑ c : Fin 4096, f c
      = (((0 + ∑ c : Fin 1024, f (blk 0 c)) + ∑ c : Fin 1024, f (blk 1 c))
          + ∑ c : Fin 1024, f (blk 2 c)) + ∑ c : Fin 1024, f (blk 3 c) := by
  rw [zero_add]
  exact Cert.SumBlocks.sum_four_blocks f

end Cert.Spec
-- ==== Proof.Val.K0.lean ====
/-
  Region 0 of the program: the value its output array ends with, at the extended reals.

  The region is a blocked matrix product on a 4 x 4 x 4 grid of points (i, j, k), point number
  t = 16 i + 4 j + k.  At every point the body adds to a 1024 x 1024 accumulator the product of the
  dequantised integer block (i, k) with the block (k, j) of the right factor; the accumulator is cleared
  at k = 0 and copied to the output block (i, j) at k = 3.  So entry (a, b) of output block (i, j) is
  zero plus the four block sums over k = 0, 1, 2, 3, added in that order, and a sum over the 4096
  contracted indices is exactly those four consecutive block sums: entry (x, y) of the output array is
  sum_o deq (Q (x, o)) s * U (o, y).

  The file has four parts: what each control case of the body leaves (its one covering store's
  payload); the accumulator after the four points of one (i, j), at an entry; each input block read
  off its array; and the output array from the blocks the flushing points write back.
-/
import proofs.«120424_j76063870812747_2_alg».proof.Proof.KI.Reg0
import proofs.«120424_j76063870812747_2_alg».proof.Proof.Val.Pay
import proofs.«120424_j76063870812747_2_alg».proof.Proof.Val.Sums
import proofs.«120424_j76063870812747_2_alg».proof.Proof.Val.Rd
import Idealize.ShloMosaic.Lib.Pipeline.Value
import Idealize.ShloMosaic.Lib.Tactic

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

section pieces
variable {F : FTy → Type} [FloatOps F]

theorem hz2 : (![0, 0] : Fin 2 → Nat) = fun _ => 0 := funext fun a => by fin_cases a <;> rfl

/-- At the middle steps the accumulator ends at the step's payload of the three input blocks and of what it held. -/
theorem sout0_B_eq (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .i32) (x1 : Vec F S1024x1024 .bf16) (x2 : Vec F S1x1 .f32) (xs0 : Vec F S1024x1024 .f32) :
    sout0_B c i arg3 harg3 arg4 harg4 arg5 harg5 arg6 harg6 arg7 harg7 hc0 hc1 x0 x1 x2 xs0 = k0_pay2 x0 x2 xs0 x1 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  rw [View.canon_unit_zero hz2]
  simp only [View.readAt_eq_ld, harg3.read_unread, harg4.read_unread, harg5.read_unread, harg7.read_unread,
    View.ld_unit_zero (S := S1024x1024) hz2, View.ld_unit_zero (S := S1x1) hz2]

/-- At the first step the accumulator is cleared first: it ends at the step's payload over the zero tile. -/
theorem sout0_A_eq (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .i32) (x1 : Vec F S1024x1024 .bf16) (x2 : Vec F S1x1 .f32) :
    sout0_A c i arg3 harg3 arg4 harg4 arg5 harg5 arg6 harg6 arg7 harg7 hc0 hc1 x0 x1 x2 = k0_pay2 x0 x2 (k0_pay1 (F := F)) x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread,
    View.ld_unit_zero (S := S1024x1024) hz2, View.ld_unit_zero (S := S1x1) hz2]

/-- At the last step the accumulator ends at the step's payload, as at the middle steps. -/
theorem sout0_C_eq (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) :
    sout0_C c i arg3 harg3 arg4 harg4 arg5 harg5 arg6 harg6 arg7 harg7 hc0 hc1 x0 x1 x2 xs0 = k0_pay2 x0 x2 xs0 x1 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero (S := S1024x1024) hz2]
  simp only [View.readAt_eq_ld, harg3.read_unread, harg4.read_unread, harg5.read_unread, harg7.read_unread,
    View.ld_unit_zero (S := S1024x1024) hz2, View.ld_unit_zero (S := S1x1) hz2]

/-- and the output buffer receives the accumulator just written: the same payload. -/
theorem out0_C_eq (c : Dev nD) (i : grid0.Coords) (arg3 : Memref sig .tc .vmem S1024x1024 .i32) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .i32) (x1 : Vec F S1024x1024 .bf16) (x2 : Vec F S1x1 .f32) (xs0 : Vec F S1024x1024 .f32) :
    out0_C c i arg3 harg3 arg4 harg4 arg5 harg5 arg6 harg6 arg7 harg7 hc0 hc1 x0 x1 x2 xs0 = k0_pay2 x0 x2 xs0 x1 := by
  unfold out0_C
  rw [View.read_writes_eq_canon _ _ _ (cover0_C c i arg3 harg3 arg4 harg4 arg5 harg5 arg6 harg6 arg7 harg7 hc0 hc1 x0 x1 x2 xs0)]
  unfold kernelRun0_C
  dsimp only
  sl_unfold_words
  rw [View.canon_unit_zero (S := S1024x1024) hz2, View.readCov_unit_zero (S := S1024x1024) _ hz2]
  simp only [View.readAt_eq_ld, harg3.read_unread, harg4.read_unread, harg5.read_unread, harg7.read_unread,
    View.ld_unit_zero (S := S1024x1024) hz2, View.ld_unit_zero (S := S1x1) hz2]

/-- The first step's piece lemma at a grid point, over that point's input blocks. -/
theorem sout0_A_at (V : (c : Dev nD) → (b : Ref sig .tc) → Buf (Elt F) ((c : Thread nD τ).loc b)) (c : Dev nD) (t : Fin cfg0.N)
    (hc0 : cond0_0 (grid0.coords t)) (hc1 : ¬cond0_1 (grid0.coords t)) :
    sout0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)
      = k0_pay2 (iblk0 V c 0 t) (iblk0 V c 2 t) (k0_pay1 (F := F)) (iblk0 V c 1 t) :=
  sout0_A_eq c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)

/-- A middle step's piece lemma at a grid point. -/
theorem sout0_B_at (V : (c : Dev nD) → (b : Ref sig .tc) → Buf (Elt F) ((c : Thread nD τ).loc b)) (c : Dev nD) (t : Fin cfg0.N)
    (hc0 : ¬cond0_0 (grid0.coords t)) (hc1 : ¬cond0_1 (grid0.coords t)) (xs0 : Vec F S1024x1024 .f32) :
    sout0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0
      = k0_pay2 (iblk0 V c 0 t) (iblk0 V c 2 t) xs0 (iblk0 V c 1 t) :=
  sout0_B_eq c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0

/-- The last step's piece lemmas at a grid point: the accumulator, -/
theorem sout0_C_at (V : (c : Dev nD) → (b : Ref sig .tc) → Buf (Elt F) ((c : Thread nD τ).loc b)) (c : Dev nD) (t : Fin cfg0.N)
    (hc0 : ¬cond0_0 (grid0.coords t)) (hc1 : cond0_1 (grid0.coords t)) (xs0 : Vec F S1024x1024 .f32) :
    sout0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0
      = k0_pay2 (iblk0 V c 0 t) (iblk0 V c 2 t) xs0 (iblk0 V c 1 t) :=
  sout0_C_eq c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0

/-- and the output buffer. -/
theorem out0_C_at (V : (c : Dev nD) → (b : Ref sig .tc) → Buf (Elt F) ((c : Thread nD τ).loc b)) (c : Dev nD) (t : Fin cfg0.N)
    (hc0 : ¬cond0_0 (grid0.coords t)) (hc1 : cond0_1 (grid0.coords t)) (xs0 : Vec F S1024x1024 .f32) :
    out0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0
      = k0_pay2 (iblk0 V c 0 t) (iblk0 V c 2 t) xs0 (iblk0 V c 1 t) :=
  out0_C_eq c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) xs0

end pieces

/-! ## The accumulator after the points of one output block, at an entry -/

section value

variable (V : (c : Dev nD) → (b : Ref sig .tc) → Buf (Elt Ideal) ((c : Thread nD τ).loc b))

/-- The integer block the body finds at point `t`. -/
def tileQ (c : Dev nD) (t : Fin cfg0.N) : Vec Ideal S1024x1024 .i32 := iblk0 V c 0 t
/-- The right factor's block at point `t`. -/
def tileU (c : Dev nD) (t : Fin cfg0.N) : Vec Ideal S1024x1024 .bf16 := iblk0 V c 1 t
/-- The scale at point `t`. -/
def tileS (c : Dev nD) (t : Fin cfg0.N) : Vec Ideal S1x1 .f32 := iblk0 V c 2 t

/-- What point `t` adds to entry `(a, b)` of the accumulator: the block product's entry. -/
def stepSum (c : Dev nD) (t : Fin cfg0.N) (a b : Fin 1024) : EReal :=
  ∑ k : Fin 1024, Cert.Spec.deq (tileQ V c t (ix2 a k)) (tileS V c t (ix2 (0 : Fin 1) (0 : Fin 1))) * tileU V c t (ix2 k b)

/-- At a point with k = 0 the accumulator ends at zero plus the point's block product. -/
theorem acc_first (c : Dev nD) (n : ℕ) (h : n < cfg0.N) (h0 : n % 4 = 0) (a b : Fin 1024) :
    (outsAt0 V c n h).2 (ix2 a b) = 0 + stepSum V c ⟨n, h⟩ a b := by
  rw [outsAt0_A V c ⟨n, h⟩ h0]
  dsimp only
  rw [sout0_A_at V c ⟨n, h⟩]
  refine (pay0 _ _ _ _ a b).trans ?_
  rw [pay0z]
  rfl

/-- At a point with k ≠ 0 it ends at what the point before left plus the point's block product. -/
theorem acc_next (c : Dev nD) (n : ℕ) (h : n + 1 < cfg0.N) (h0 : ¬(n + 1) % 4 = 0) (a b : Fin 1024) :
    (outsAt0 V c (n + 1) h).2 (ix2 a b)
      = (outsAt0 V c n (Nat.lt_of_succ_lt h)).2 (ix2 a b) + stepSum V c ⟨n + 1, h⟩ a b := by
  by_cases h1 : (n + 1) % 4 = 3
  · rw [outsAt0_C V c ⟨n + 1, h⟩ h0 h1]
    dsimp only
    rw [sout0_C_at V c ⟨n + 1, h⟩]
    exact pay0 _ _ _ _ a b
  · rw [outsAt0_B V c ⟨n + 1, h⟩ h0 h1]
    dsimp only
    rw [sout0_B_at V c ⟨n + 1, h⟩]
    exact pay0 _ _ _ _ a b

/-- At a point with k = 3 the output buffer receives what the accumulator ends with. -/
theorem out_eq_acc (c : Dev nD) (n : ℕ) (h : n + 1 < cfg0.N) (h1 : (n + 1) % 4 = 3) (a b : Fin 1024) :
    (outsAt0 V c (n + 1) h).1 (ix2 a b) = (outsAt0 V c (n + 1) h).2 (ix2 a b) := by
  have h0 : ¬(n + 1) % 4 = 0 := by omega
  rw [outsAt0_C V c ⟨n + 1, h⟩ h0 h1]
  dsimp only
  rw [sout0_C_at V c ⟨n + 1, h⟩, out0_C_at V c ⟨n + 1, h⟩]

/-- After the four points `n, n + 1, n + 2, n + 3` of one output block (`n` a multiple of 4) the output buffer
    holds, at an entry, zero plus the four block products' entries added in the points' order. -/
theorem out_last (c : Dev nD) (n : ℕ) (h : n + 3 < cfg0.N) (h0 : n % 4 = 0) (a b : Fin 1024) :
    (outsAt0 V c (n + 3) h).1 (ix2 a b)
      = (((0 + stepSum V c ⟨n, by omega⟩ a b) + stepSum V c ⟨n + 1, by omega⟩ a b)
          + stepSum V c ⟨n + 2, by omega⟩ a b) + stepSum V c ⟨n + 3, h⟩ a b := by
  rw [out_eq_acc V c (n + 2) h (by omega) a b, acc_next V c (n + 2) h (by omega) a b,
    acc_next V c (n + 1) (by omega) (by omega) a b, acc_next V c n (by omega) (by omega) a b,
    acc_first V c n (by omega) h0 a b]

/-! ## Each input block, read off its array -/

/-- The printed index maps over the grid: point `t = 16 i + 4 j + k` reads block `(i, k)` of the integer table and
    block `(k, j)` of the right factor, the one scale, and writes block `(i, j)`. -/
theorem idx_facts0 : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = 0
    ∧ win0_3.index t (0 : Fin 2) = t.val / 16 ∧ win0_3.index t (1 : Fin 2) = t.val / 4 % 4 :=
  (by decide +kernel : ∀ t : Fin grid0.N, _)

/-- Entry `(a, l)` of the integer block at point `t = 16 i + 4 j + k` is entry `(1024 i + a, 1024 k + l)` of the table
    (`l` is the lemma's variable `k`). -/
theorem tileQ_apply (c : Dev nD) (t : Fin cfg0.N) (a k : Fin 1024) (r s : Fin 4096)
    (hr : r.val = t.val / 16 * 1024 + a.val) (hs : s.val = t.val % 4 * 1024 + k.val) :
    tileQ V c t (ix2 a k) = V c main_arg1 (ix2 r s) := by
  obtain ⟨e0, e1, -⟩ := idx_facts0 t
  unfold tileQ iblk0
  show V c main_arg1 (((cfg0.win 0).blk t).view.emb (ix2 a k)) = V c main_arg1 (ix2 r s)
  refine congrArg _ ?_
  funext d; apply Fin.ext
  match d with
  | ⟨0, _⟩ => show win0_0.index t (0 : Fin 2) * 1024 + 1 * a.val = r.val; rw [e0, hr]; omega
  | ⟨1, _⟩ => show win0_0.index t (1 : Fin 2) * 1024 + 1 * k.val = s.val; rw [e1, hs]; omega

/-- Entry `(l, b)` of the right factor's block at point `t = 16 i + 4 j + k` is entry `(1024 k + l, 1024 j + b)` of the
    right factor (`l` is the lemma's variable `k`). -/
theorem tileU_apply (c : Dev nD) (t : Fin cfg0.N) (k b : Fin 1024) (r s : Fin 4096)
    (hr : r.val = t.val % 4 * 1024 + k.val) (hs : s.val = t.val / 4 % 4 * 1024 + b.val) :
    tileU V c t (ix2 k b) = V c main_v0 (ix2 r s) := by
  obtain ⟨-, -, e2, e3, -⟩ := idx_facts0 t
  unfold tileU iblk0
  show V c main_v0 (((cfg0.win 1).blk t).view.emb (ix2 k b)) = V c main_v0 (ix2 r s)
  refine congrArg _ ?_
  funext d; apply Fin.ext
  match d with
  | ⟨0, _⟩ => show win0_1.index t (0 : Fin 2) * 1024 + 1 * k.val = r.val; rw [e2, hr]; omega
  | ⟨1, _⟩ => show win0_1.index t (1 : Fin 2) * 1024 + 1 * b.val = s.val; rw [e3, hs]; omega

/-- The scale's block is the one-entry array itself. -/
theorem tileS_apply (c : Dev nD) (t : Fin cfg0.N) :
    tileS V c t (ix2 (0 : Fin 1) (0 : Fin 1)) = V c main_v2 (ix2 (0 : Fin 1) (0 : Fin 1)) := by
  obtain ⟨-, -, -, -, e4, e5, -⟩ := idx_facts0 t
  unfold tileS iblk0
  show V c main_v2 (((cfg0.win 2).blk t).view.emb (ix2 (0 : Fin 1) (0 : Fin 1))) = V c main_v2 (ix2 (0 : Fin 1) (0 : Fin 1))
  refine congrArg _ ?_
  funext d; apply Fin.ext
  match d with
  | ⟨0, _⟩ => show win0_2.index t (0 : Fin 2) * 1 + 1 * 0 = 0; rw [e4]
  | ⟨1, _⟩ => show win0_2.index t (1 : Fin 2) * 1 + 1 * 0 = 0; rw [e5]

/-- So the block product's entry at point `t` is the sum over block `k` of the contracted indices, in the arrays'
    own coordinates. -/
theorem stepSum_eq (c : Dev nD) (t : Fin cfg0.N) (a b : Fin 1024) (x y : Fin 4096) (kk : Fin 4)
    (hx : x.val = t.val / 16 * 1024 + a.val) (hy : y.val = t.val / 4 % 4 * 1024 + b.val) (hk : kk.val = t.val % 4) :
    stepSum V c t a b
      = ∑ k : Fin 1024, Cert.Spec.deq (V c main_arg1 (ix2 x (Cert.Spec.blk kk k))) (V c main_v2 (ix2 (0 : Fin 1) (0 : Fin 1)))
          * (V c main_v0 (ix2 (Cert.Spec.blk kk k) y) : EReal) := by
  unfold stepSum
  refine Finset.sum_congr rfl fun k _ => ?_
  rw [tileQ_apply V c t a k x (Cert.Spec.blk kk k) hx (by rw [Cert.Spec.blk_val, hk]),
    tileU_apply V c t k b (Cert.Spec.blk kk k) y (by rw [Cert.Spec.blk_val, hk]) hy, tileS_apply V c t]

/-! ## From the blocks to the array -/

/-- The product the region computes, over curried literal coordinates: the dequantised table times the right factor. -/
def prod0 (c : Dev nD) (x y : Fin 4096) : EReal :=
  ∑ o : Fin 4096, Cert.Spec.deq (V c main_arg1 (ix2 x o)) (V c main_v2 (ix2 (0 : Fin 1) (0 : Fin 1)))
    * (V c main_v0 (ix2 o y) : EReal)

/-- The same as contents of the output array. -/
def G0 (c : Dev nD) : S4096x4096.Idx → EReal :=
  fun j => prod0 V c ⟨(j 0).val, (j 0).isLt⟩ ⟨(j 1).val, (j 1).isLt⟩

theorem G0_apply (c : Dev nD) (j : S4096x4096.Idx) (x y : Fin 4096) (hx : (j 0).val = x.val) (hy : (j 1).val = y.val) :
    G0 V c j = prod0 V c x y := by
  unfold G0
  rw [show (⟨(j 0).val, (j 0).isLt⟩ : Fin 4096) = x from Fin.ext hx, show (⟨(j 1).val, (j 1).isLt⟩ : Fin 4096) = y from Fin.ext hy]

/-- What a flushing point writes back is its block of the product: the accumulated four block sums are the sum
    over all 4096 contracted indices. -/
theorem flushed0_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have hN : cfg0.N = 64 := N_0
  obtain ⟨tv, tlt⟩ := t
  obtain ⟨n, rfl⟩ : ∃ n, tv = n + 3 := ⟨tv - 3, by dsimp only at h3; omega⟩
  have h0 : n % 4 = 0 := by dsimp only at h3; omega
  obtain ⟨-, -, -, -, -, -, e6, e7⟩ := idx_facts0 ⟨n + 3, tlt⟩
  dsimp only at e6 e7
  show (cfg0.win 3).cut (grid0.coords ⟨n + 3, tlt⟩) ((dat0 V c).after 3 ⟨n + 3, tlt⟩) = _
  rw [after0_3]
  funext j
  obtain ⟨a, b, rfl⟩ : ∃ (a b : Fin 1024), j = ix2 a b := ⟨j 0, j 1, eq_ix2 j⟩
  show (outsAt0 V c (n + 3) tlt).1 (ix2 a b) = G0 V c (((cfg0.win 3).blk ⟨n + 3, tlt⟩).view.emb (ix2 a b))
  have ha : a.val < 1024 := a.isLt
  have hb : b.val < 1024 := b.isLt
  rw [out_last V c n tlt h0 a b,
    G0_apply V c _ ⟨(n + 3) / 16 * 1024 + a.val, by omega⟩ ⟨(n + 3) / 4 % 4 * 1024 + b.val, by omega⟩
      (by show win0_3.index ⟨n + 3, tlt⟩ (0 : Fin 2) * 1024 + 1 * a.val = (n + 3) / 16 * 1024 + a.val; rw [e6]; omega)
      (by show win0_3.index ⟨n + 3, tlt⟩ (1 : Fin 2) * 1024 + 1 * b.val = (n + 3) / 4 % 4 * 1024 + b.val; rw [e7]; omega)]
  unfold prod0
  rw [Cert.Spec.sum_four_blk,
    stepSum_eq V c ⟨n, by omega⟩ a b ⟨(n + 3) / 16 * 1024 + a.val, by omega⟩ ⟨(n + 3) / 4 % 4 * 1024 + b.val, by omega⟩ 0
      (by dsimp only; try omega) (by dsimp only; try omega) (by dsimp only; try omega),
    stepSum_eq V c ⟨n + 1, by omega⟩ a b ⟨(n + 3) / 16 * 1024 + a.val, by omega⟩ ⟨(n + 3) / 4 % 4 * 1024 + b.val, by omega⟩ 1
      (by dsimp only; try omega) (by dsimp only; try omega) (by dsimp only; try omega),
    stepSum_eq V c ⟨n + 2, by omega⟩ a b ⟨(n + 3) / 16 * 1024 + a.val, by omega⟩ ⟨(n + 3) / 4 % 4 * 1024 + b.val, by omega⟩ 2
      (by dsimp only; try omega) (by dsimp only; try omega) (by dsimp only; try omega),
    stepSum_eq V c ⟨n + 3, tlt⟩ a b ⟨(n + 3) / 16 * 1024 + a.val, by omega⟩ ⟨(n + 3) / 4 % 4 * 1024 + b.val, by omega⟩ 3
      (by dsimp only; try omega) (by dsimp only; try omega) (by dsimp only; try omega)]

/-- Every entry of the output array is in the block of the flushing point of its block row and block column. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 64 := N_0
  have h0 : (i 0 : Nat) < 4096 := (i 0).isLt
  have h1 : (i 1 : Nat) < 4096 := (i 1).isLt
  obtain ⟨t, ht⟩ : ∃ t : Fin cfg0.N, t.val = (i 0 : Nat) / 1024 * 16 + (i 1 : Nat) / 1024 * 4 + 3 :=
    ⟨⟨(i 0 : Nat) / 1024 * 16 + (i 1 : Nat) / 1024 * 4 + 3, by omega⟩, rfl⟩
  obtain ⟨-, -, -, -, -, -, e6, e7⟩ := idx_facts0 t
  refine ⟨t, (flush0_3 t).mpr (by omega), ?_⟩
  show i ∈ ((View.whole main_v6).slice (win0_3.rect t)).set
  rw [View.set_slice_whole, Rect.mem_set_unit]
  intro a
  match a with
  | ⟨0, _⟩ =>
    show win0_3.index t (0 : Fin 2) * 1024 ≤ (i 0 : Nat) ∧ (i 0 : Nat) < win0_3.index t (0 : Fin 2) * 1024 + 1024
    rw [e6]; omega
  | ⟨1, _⟩ =>
    show win0_3.index t (1 : Fin 2) * 1024 ≤ (i 1 : Nat) ∧ (i 1 : Nat) < win0_3.index t (1 : Fin 2) * 1024 + 1024
    rw [e7]; omega

/-- The output array of the region after its run is the product. -/
theorem final0 (c : Dev nD) : (dat0 V c).arrAt 3 cfg0.N = G0 V c :=
  (dat0 V c).arrAt_eq_of_cover 3 (G0 V c) (flushed0_eq V c) (cover0 c)

/-- Entry `(i, o')` of the region's output array after its run: `sum_o deq (Q (i, o)) s * U (o, o')`. -/
theorem reg0_val (c : Dev nD) (i o' : Fin 4096) :
    (dat0 V c).arrAt 3 cfg0.N (ix2 i o')
      = ∑ o : Fin 4096, Cert.Spec.deq (V c main_arg1 (ix2 i o)) (rd2 (V c main_v2) (0 : Fin 1) (0 : Fin 1))
          * rd2 (V c main_v0) o o' := by
  rw [final0 V c]
  exact G0_apply V c (ix2 i o') i o' rfl rfl

end value
end Cert.Val
end
-- ==== Proof.Val.K1P.lean ====
/-
  Region 1 (the second blocked product): what each control case of its body leaves, as the step's
  arithmetic of the tiles the body read, and from that the accumulator and the output tile after a
  grid point in terms of what the point before left.

  The body reads the left tile `x0`, the right tile `x1`, the row of scales `x2` and the accumulator.
  At contraction step 0 it first clears the accumulator, so the sum it stores is over the cleared
  tile; at steps 1, 2, 3 the sum is over what the accumulator held; at step 3 the output tile receives
  that sum divided by the row of scales.  A load of a whole buffer reads its contents, and a load of
  the accumulator after one whole-buffer store reads what was stored.
-/
import proofs.«120424_j76063870812747_2_alg».proof.Proof.KI.Reg1
import Idealize.ShloMosaic.Lib.Pipeline.Value
import Idealize.ShloMosaic.Lib.ValueIdx
import Idealize.ShloMosaic.PureOps.Ideal
import Idealize.ShloMosaic.Lib.Tactic

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

/-! ## What each control case leaves, as the step's arithmetic of the tiles it read -/

section Pieces
variable {F : FTy → Type} [FloatOps F]

/-- The zero offsets of a whole-tile rectangle. -/
theorem hz2 : (![0, 0] : Fin 2 → Nat) = fun _ => 0 := funext fun a => by fin_cases a <;> rfl

/-- At contraction step 0 the accumulator is cleared first, so it ends at the step's sum over the cleared tile. -/
theorem sout1_A_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    sout1_A c i arg3 harg3 arg4 harg4 arg5 harg5 arg6 harg6 arg7 harg7 hc0 hc1 x0 x1 x2 = k1_pay2 x0 (k1_pay1 (F := F)) x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  try sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- At contraction steps 1 and 2 the accumulator ends at the step's sum over what it held. -/
theorem sout1_B_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    sout1_B c i arg3 harg3 arg4 harg4 arg5 harg5 arg6 harg6 arg7 harg7 hc0 hc1 x0 x1 x2 xs0 = k1_pay2 x0 xs0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  try sl_unfold_words
  rw [View.canon_unit_zero hz2]
  simp only [View.readAt_eq_ld, harg3.read_unread, harg4.read_unread, harg7.read_unread, View.ld_unit_zero (S := S1024x1024) hz2]

/-- At contraction step 3 the accumulator ends at the step's sum over what it held … -/
theorem sout1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    sout1_C c i arg3 harg3 arg4 harg4 arg5 harg5 arg6 harg6 arg7 harg7 hc0 hc1 x0 x1 x2 xs0 = k1_pay2 x0 xs0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  try sl_unfold_words
  rw [View.canon_unit_zero hz2]
  simp only [View.readAt_eq_ld, harg3.read_unread, harg4.read_unread, harg7.read_unread, View.ld_unit_zero (S := S1024x1024) hz2]

/-- … and the output tile at that sum divided by the row of scales. -/
theorem out1_C_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    out1_C c i arg3 harg3 arg4 harg4 arg5 harg5 arg6 harg6 arg7 harg7 hc0 hc1 x0 x1 x2 xs0 = k1_pay3 (k1_pay2 x0 xs0 x1) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  try sl_unfold_words
  rw [View.canon_unit_zero hz2, View.readCov_unit_zero (S := S1024x1024) _ hz2]
  simp only [View.readAt_eq_ld, harg3.read_unread, harg4.read_unread, harg5.read_unread, harg7.read_unread, View.ld_unit_zero (S := S1024x1024) hz2, View.ld_unit_zero (S := S1x1024) hz2]

end Pieces

/-! ## The accumulator and the output tile after a grid point, as the step's arithmetic -/

section AtIdeal

variable (V : (c : Dev nD) → (b : Ref sig .tc) → Buf (Elt Ideal) ((c : Thread nD τ).loc b)) (c : Dev nD)

/-- After a point at contraction step 0 the accumulator is the step's sum over the cleared tile. -/
theorem acc_A (t : Fin cfg1.N) (h0 : t.val % 4 = 0) :
    (outsAt1 V c t.val t.isLt).2 = k1_pay2 (iblk1 V c 0 t) (k1_pay1 (F := Ideal)) (iblk1 V c 1 t) := by
  rw [outsAt1_A V c t h0]
  dsimp only
  exact sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => by have h3 := (hcond1_1 t).mp h; (try dsimp only at h3 h0); omega) (iblk1 V c 0 t) (iblk1 V c 1 t) (iblk1 V c 2 t)

/-- After a point at contraction step 1 or 2 the accumulator is the step's sum over what the point before left. -/
theorem acc_B (t : Fin cfg1.N) (h0 : ¬t.val % 4 = 0) (h1 : ¬t.val % 4 = 3) :
    (outsAt1 V c t.val t.isLt).2
      = k1_pay2 (iblk1 V c 0 t) (outsAt1 V c (t.val - 1) (Nat.lt_of_le_of_lt (Nat.sub_le _ _) t.isLt)).2 (iblk1 V c 1 t) := by
  rw [outsAt1_B V c t h0 h1]
  dsimp only
  exact sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- After a point at contraction step 3 the accumulator is the step's sum over what the point before left … -/
theorem acc_C (t : Fin cfg1.N) (h0 : ¬t.val % 4 = 0) (h1 : t.val % 4 = 3) :
    (outsAt1 V c t.val t.isLt).2
      = k1_pay2 (iblk1 V c 0 t) (outsAt1 V c (t.val - 1) (Nat.lt_of_le_of_lt (Nat.sub_le _ _) t.isLt)).2 (iblk1 V c 1 t) := by
  rw [outsAt1_C V c t h0 h1]
  dsimp only
  exact sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- … and the output tile is that sum divided by the point's block of the row of scales. -/
theorem out_C (t : Fin cfg1.N) (h0 : ¬t.val % 4 = 0) (h1 : t.val % 4 = 3) :
    (outsAt1 V c t.val t.isLt).1
      = k1_pay3 (k1_pay2 (iblk1 V c 0 t) (outsAt1 V c (t.val - 1) (Nat.lt_of_le_of_lt (Nat.sub_le _ _) t.isLt)).2 (iblk1 V c 1 t)) (iblk1 V c 2 t) := by
  rw [outsAt1_C V c t h0 h1]
  dsimp only
  exact out1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end AtIdeal

end Cert.Val

end
-- ==== Proof.Val.K1.lean ====
/-
  Region 1 (the second blocked product): the value of its output array.

  The grid is 4 x 4 x 4, point `t = i * 16 + j * 4 + k`.  At point `t` the body reads the tile
  `(k, i)` of the left array, the tile `(k, j)` of the right array and the block `j` of the row of
  scales; it accumulates over `k = 0, 1, 2, 3` the products contracting the FIRST axis of both tiles,
  and at `k = 3` writes tile `(i, j)` of the output: the accumulated sum divided, column by column,
  by the row of scales.  Entry `(a, b)` of that tile is therefore

      ((((0 + S 0) + S 1) + S 2) + S 3) / scale (j * 1024 + b),
      S k = sum over r < 1024 of  left (k * 1024 + r, i * 1024 + a) * right (k * 1024 + r, j * 1024 + b),

  and the four block sums are one sum over the 4096 rows.  The sixteen tiles written at the points
  with `k = 3` cover the output array.
-/
import proofs.«120424_j76063870812747_2_alg».proof.Proof.Val.K1P
import proofs.«120424_j76063870812747_2_alg».proof.Proof.Val.Pay
import proofs.«120424_j76063870812747_2_alg».proof.Proof.Val.Sums
import proofs.«120424_j76063870812747_2_alg».proof.Proof.Val.Rd
import Idealize.ShloMosaic.Lib.Pipeline.Value
import Idealize.ShloMosaic.Lib.ValueIdx
import Idealize.ShloMosaic.Lib.Tactic

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-! ## The tiles of a grid point and its block product -/

/-- The three input tiles of a grid point, at their literal tile shapes. -/
def B0 (t : Fin cfg1.N) : Vec Ideal S1024x1024 .f32 := iblk1 V c 0 t
def B1 (t : Fin cfg1.N) : Vec Ideal S1024x1024 .bf16 := iblk1 V c 1 t
def B2 (t : Fin cfg1.N) : Vec Ideal S1x1024 .f32 := iblk1 V c 2 t

/-- The block product of a grid point at entry `(a, b)`: the sum over the tiles' rows. -/
def Sterm (t : Fin cfg1.N) (a b : Fin 1024) : EReal :=
  ∑ k : Fin 1024, B0 V c t (ix2 k a) * B1 V c t (ix2 k b)

/-! ## After a grid point, entry by entry -/

/-- At contraction step 0: entry `(a, b)` of the accumulator is zero plus the point's block product. -/
theorem accA_apply (t : Fin cfg1.N) (h0 : t.val % 4 = 0) (a b : Fin 1024) :
    (outsAt1 V c t.val t.isLt).2 (ix2 a b) = 0 + Sterm V c t a b := by
  rw [acc_A V c t h0]
  refine (pay1 (B0 V c t) (k1_pay1 (F := Ideal)) (B1 V c t) a b).trans ?_
  rw [pay1z]
  rfl

/-- At contraction steps 1 and 2: the entry the point before left plus the point's block product. -/
theorem accB_apply (t : Fin cfg1.N) (h0 : ¬t.val % 4 = 0) (h1 : ¬t.val % 4 = 3) (a b : Fin 1024) :
    (outsAt1 V c t.val t.isLt).2 (ix2 a b)
      = (outsAt1 V c (t.val - 1) (Nat.lt_of_le_of_lt (Nat.sub_le _ _) t.isLt)).2 (ix2 a b) + Sterm V c t a b := by
  rw [acc_B V c t h0 h1]
  exact pay1 (B0 V c t) (outsAt1 V c (t.val - 1) (Nat.lt_of_le_of_lt (Nat.sub_le _ _) t.isLt)).2 (B1 V c t) a b

/-- At contraction step 3: the output tile's entry `(a, b)` is that sum divided by the scale of column `b`. -/
theorem outC_apply (t : Fin cfg1.N) (h0 : ¬t.val % 4 = 0) (h1 : t.val % 4 = 3) (a b : Fin 1024) :
    (outsAt1 V c t.val t.isLt).1 (ix2 a b)
      = Ideal.div ((outsAt1 V c (t.val - 1) (Nat.lt_of_le_of_lt (Nat.sub_le _ _) t.isLt)).2 (ix2 a b) + Sterm V c t a b) (B2 V c t (ix2 (0 : Fin 1) b)) := by
  rw [out_C V c t h0 h1]
  refine (pay1d (k1_pay2 (B0 V c t) (outsAt1 V c (t.val - 1) (Nat.lt_of_le_of_lt (Nat.sub_le _ _) t.isLt)).2 (B1 V c t)) (B2 V c t) a b).trans ?_
  rw [pay1 (B0 V c t) (outsAt1 V c (t.val - 1) (Nat.lt_of_le_of_lt (Nat.sub_le _ _) t.isLt)).2 (B1 V c t) a b]
  rfl

/-- The output tile after the last of four consecutive contraction steps `n, n+1, n+2, n+3`. -/
theorem out4 (n : ℕ) (h : n + 3 < cfg1.N) (hn : n % 4 = 0) (a b : Fin 1024) :
    (outsAt1 V c (n + 3) h).1 (ix2 a b)
      = Ideal.div ((((0 + Sterm V c ⟨n, by omega⟩ a b) + Sterm V c ⟨n + 1, by omega⟩ a b)
            + Sterm V c ⟨n + 2, by omega⟩ a b) + Sterm V c ⟨n + 3, h⟩ a b)
          (B2 V c ⟨n + 3, h⟩ (ix2 (0 : Fin 1) b)) := by
  have e3 : (outsAt1 V c (n + 3) h).1 (ix2 a b)
      = Ideal.div ((outsAt1 V c (n + 2) (by omega)).2 (ix2 a b) + Sterm V c ⟨n + 3, h⟩ a b)
          (B2 V c ⟨n + 3, h⟩ (ix2 (0 : Fin 1) b)) :=
    outC_apply V c ⟨n + 3, h⟩ (by dsimp only; omega) (by dsimp only; omega) a b
  have e2 : (outsAt1 V c (n + 2) (by omega)).2 (ix2 a b)
      = (outsAt1 V c (n + 1) (by omega)).2 (ix2 a b) + Sterm V c ⟨n + 2, by omega⟩ a b :=
    accB_apply V c ⟨n + 2, by omega⟩ (by dsimp only; omega) (by dsimp only; omega) a b
  have e1 : (outsAt1 V c (n + 1) (by omega)).2 (ix2 a b)
      = (outsAt1 V c n (by omega)).2 (ix2 a b) + Sterm V c ⟨n + 1, by omega⟩ a b :=
    accB_apply V c ⟨n + 1, by omega⟩ (by dsimp only; omega) (by dsimp only; omega) a b
  have e0 : (outsAt1 V c n (by omega)).2 (ix2 a b) = 0 + Sterm V c ⟨n, by omega⟩ a b :=
    accA_apply V c ⟨n, by omega⟩ hn a b
  rw [e3, e2, e1, e0]

/-! ## Which tiles a grid point reads and writes, decided once over the grid -/

theorem idx1_0 : ∀ t : Fin cfg1.N, win1_0.index t 0 = t.val % 4 ∧ win1_0.index t 1 = t.val / 16 :=
  (by decide +kernel : ∀ t : Fin grid1.N, win1_0.index t 0 = t.val % 4 ∧ win1_0.index t 1 = t.val / 16)
theorem idx1_1 : ∀ t : Fin cfg1.N, win1_1.index t 0 = t.val % 4 ∧ win1_1.index t 1 = t.val / 4 % 4 :=
  (by decide +kernel : ∀ t : Fin grid1.N, win1_1.index t 0 = t.val % 4 ∧ win1_1.index t 1 = t.val / 4 % 4)
theorem idx1_2 : ∀ t : Fin cfg1.N, win1_2.index t 0 = 0 ∧ win1_2.index t 1 = t.val / 4 % 4 :=
  (by decide +kernel : ∀ t : Fin grid1.N, win1_2.index t 0 = 0 ∧ win1_2.index t 1 = t.val / 4 % 4)
theorem idx1_3 : ∀ t : Fin cfg1.N, win1_3.index t 0 = t.val / 16 ∧ win1_3.index t 1 = t.val / 4 % 4 :=
  (by decide +kernel : ∀ t : Fin grid1.N, win1_3.index t 0 = t.val / 16 ∧ win1_3.index t 1 = t.val / 4 % 4)

/-! ## The tiles as entries of their arrays -/

/-- The left tile of point `t` is tile `(t % 4, t / 16)` of the left array. -/
theorem B0_apply (t : Fin cfg1.N) (k a : Fin 1024) (x y : Fin 4096)
    (hx : x.val = t.val % 4 * 1024 + k.val) (hy : y.val = t.val / 16 * 1024 + a.val) :
    B0 V c t (ix2 k a) = rd2 (V c main_v6) x y := by
  have hi := idx1_0 t
  unfold B0 iblk1
  rw [View.read_apply]
  show V c main_v6 _ = V c main_v6 _
  refine congrArg (V c main_v6) (funext fun ax => Fin.ext ?_)
  match ax with
  | ⟨0, _⟩ => show win1_0.index t 0 * 1024 + 1 * k.val = x.val; rw [hi.1, hx]; omega
  | ⟨1, _⟩ => show win1_0.index t 1 * 1024 + 1 * a.val = y.val; rw [hi.2, hy]; omega

/-- The right tile of point `t` is tile `(t % 4, t / 4 % 4)` of the right array. -/
theorem B1_apply (t : Fin cfg1.N) (k b : Fin 1024) (x y : Fin 4096)
    (hx : x.val = t.val % 4 * 1024 + k.val) (hy : y.val = t.val / 4 % 4 * 1024 + b.val) :
    B1 V c t (ix2 k b) = rd2 (V c main_v1) x y := by
  have hi := idx1_1 t
  unfold B1 iblk1
  rw [View.read_apply]
  show V c main_v1 _ = V c main_v1 _
  refine congrArg (V c main_v1) (funext fun ax => Fin.ext ?_)
  match ax with
  | ⟨0, _⟩ => show win1_1.index t 0 * 1024 + 1 * k.val = x.val; rw [hi.1, hx]; omega
  | ⟨1, _⟩ => show win1_1.index t 1 * 1024 + 1 * b.val = y.val; rw [hi.2, hy]; omega

/-- The block of scales of point `t` is block `t / 4 % 4` of the row of scales. -/
theorem B2_apply (t : Fin cfg1.N) (b : Fin 1024) (y : Fin 4096) (hy : y.val = t.val / 4 % 4 * 1024 + b.val) :
    B2 V c t (ix2 (0 : Fin 1) b) = rd2 (V c main_v3) (0 : Fin 1) y := by
  have hi := idx1_2 t
  unfold B2 iblk1
  rw [View.read_apply]
  show V c main_v3 _ = V c main_v3 _
  refine congrArg (V c main_v3) (funext fun ax => Fin.ext ?_)
  match ax with
  | ⟨0, _⟩ => show win1_2.index t 0 * 1 + 1 * 0 = 0; rw [hi.1]
  | ⟨1, _⟩ => show win1_2.index t 1 * 1024 + 1 * b.val = y.val; rw [hi.2, hy]; omega

/-- The block product of a point at contraction step `q`, over the arrays: the sum over the rows of block `q`. -/
theorem Sterm_eq (t : Fin cfg1.N) (q : Fin 4) (hq : t.val % 4 = q.val) (a b : Fin 1024) (o' i' : Fin 4096)
    (ho : o'.val = t.val / 16 * 1024 + a.val) (hi : i'.val = t.val / 4 % 4 * 1024 + b.val) :
    Sterm V c t a b
      = ∑ k : Fin 1024, rd2 (V c main_v6) (Cert.Spec.blk q k) o' * rd2 (V c main_v1) (Cert.Spec.blk q k) i' := by
  unfold Sterm
  refine Finset.sum_congr rfl fun k _ => ?_
  rw [B0_apply V c t k a (Cert.Spec.blk q k) o' (by rw [Cert.Spec.blk_val, hq]) ho,
    B1_apply V c t k b (Cert.Spec.blk q k) i' (by rw [Cert.Spec.blk_val, hq]) hi]

/-! ## The output array -/

/-- The output array: entry `(o', i')` is the sum over the 4096 rows, divided by the scale of column `i'`. -/
def G1 : S4096x4096.Idx → EReal := fun j =>
  Ideal.div (∑ i : Fin 4096, rd2 (V c main_v6) i (⟨(j 0).val, (j 0).isLt⟩ : Fin 4096) * rd2 (V c main_v1) i (⟨(j 1).val, (j 1).isLt⟩ : Fin 4096))
    (rd2 (V c main_v3) (0 : Fin 1) (⟨(j 1).val, (j 1).isLt⟩ : Fin 4096))

/-- The output array at an entry given by its two coordinates. -/
theorem G1_apply (o' i' : Fin 4096) :
    G1 V c (ix2 o' i')
      = Ideal.div (∑ i : Fin 4096, rd2 (V c main_v6) i o' * rd2 (V c main_v1) i i') (rd2 (V c main_v3) (0 : Fin 1) i') := rfl

/-- What a point with contraction step 3 writes back is its tile of the output array. -/
theorem flushed1_eq (t : Fin cfg1.N) (hf : (cfg1.win 3).flush t = true) :
    (dat1 V c).flushed 3 t = ((cfg1.win 3).blk t).view.read (Elt Ideal) (G1 V c) := by
  have h3 : t.val % 4 = 3 := (flush1_3 t).mp hf
  have hN : cfg1.N = 64 := N_1
  obtain ⟨tv, ht⟩ := t
  dsimp only at h3
  obtain ⟨n, rfl⟩ : ∃ n, tv = n + 3 := ⟨tv - 3, by omega⟩
  have hn : n % 4 = 0 := by omega
  have hi := idx1_3 ⟨n + 3, ht⟩
  dsimp only at hi
  refine funext fun (y : S1024x1024.Idx) => ?_
  obtain ⟨a, b, rfl⟩ : ∃ (a b : Fin 1024), y = ix2 a b := ⟨y 0, y 1, eq_ix2 y⟩
  have ha := a.isLt
  have hb := b.isLt
  obtain ⟨o', ho⟩ : ∃ o' : Fin 4096, o'.val = (n + 3) / 16 * 1024 + a.val := ⟨⟨_, by omega⟩, rfl⟩
  obtain ⟨i', hi'⟩ : ∃ i' : Fin 4096, i'.val = (n + 3) / 4 % 4 * 1024 + b.val := ⟨⟨_, by omega⟩, rfl⟩
  have hemb : ((cfg1.win 3).blk ⟨n + 3, ht⟩).view.emb (ix2 a b) = ix2 o' i' := funext fun ax => Fin.ext (by
    match ax with
    | ⟨0, _⟩ => show win1_3.index ⟨n + 3, ht⟩ 0 * 1024 + 1 * a.val = o'.val; rw [hi.1, ho]; omega
    | ⟨1, _⟩ => show win1_3.index ⟨n + 3, ht⟩ 1 * 1024 + 1 * b.val = i'.val; rw [hi.2, hi']; omega)
  show (dat1 V c).after 3 ⟨n + 3, ht⟩ (ix2 a b) = _
  rw [after1_3, View.read_apply, hemb]
  show (outsAt1 V c (n + 3) ht).1 (ix2 a b) = G1 V c (ix2 o' i')
  rw [out4 V c n ht hn a b, G1_apply,
    Sterm_eq V c ⟨n, by omega⟩ 0 (by show n % 4 = 0; omega) a b o' i' (by show o'.val = n / 16 * 1024 + a.val; omega) (by show i'.val = n / 4 % 4 * 1024 + b.val; omega),
    Sterm_eq V c ⟨n + 1, by omega⟩ 1 (by show (n + 1) % 4 = 1; omega) a b o' i' (by show o'.val = (n + 1) / 16 * 1024 + a.val; omega) (by show i'.val = (n + 1) / 4 % 4 * 1024 + b.val; omega),
    Sterm_eq V c ⟨n + 2, by omega⟩ 2 (by show (n + 2) % 4 = 2; omega) a b o' i' (by show o'.val = (n + 2) / 16 * 1024 + a.val; omega) (by show i'.val = (n + 2) / 4 % 4 * 1024 + b.val; omega),
    Sterm_eq V c ⟨n + 3, ht⟩ 3 (by show (n + 3) % 4 = 3; omega) a b o' i' ho hi',
    B2_apply V c ⟨n + 3, ht⟩ b i' hi']
  exact congrArg (fun s => Ideal.div s (rd2 (V c main_v3) (0 : Fin 1) i'))
    (Cert.Spec.sum_four_blk (fun kk : Fin 4096 => rd2 (V c main_v6) kk o' * rd2 (V c main_v1) kk i')).symm

/-- The sixteen tiles written at the points with contraction step 3 cover the output array. -/
theorem cover1 (j : S4096x4096.Idx) :
    ∃ t : Fin cfg1.N, (cfg1.win 3).flush t = true ∧ j ∈ ((cfg1.win 3).blk t).view.set := by
  have hN : cfg1.N = 64 := N_1
  have h0 : (j 0).val < 4096 := (j 0).isLt
  have h1 : (j 1).val < 4096 := (j 1).isLt
  obtain ⟨t, ht⟩ : ∃ t : Fin cfg1.N, t.val = (j 0).val / 1024 * 16 + (j 1).val / 1024 * 4 + 3 := ⟨⟨_, by omega⟩, rfl⟩
  have hi := idx1_3 t
  refine ⟨t, (flush1_3 t).mpr (by omega), ?_⟩
  show j ∈ ((View.whole main_v7).slice (win1_3.rect t)).set
  rw [View.set_slice_whole, Rect.mem_set_unit]
  intro ax
  match ax with
  | ⟨0, _⟩ =>
    show win1_3.index t 0 * win1_3.size 0 ≤ (j 0 : ℕ) ∧ (j 0 : ℕ) < win1_3.index t 0 * win1_3.size 0 + win1_3.xsize (grid1.coords t) 0
    rw [hi.1, show win1_3.size 0 = 1024 from rfl, show win1_3.xsize (grid1.coords t) 0 = 1024 from rfl]
    omega
  | ⟨1, _⟩ =>
    show win1_3.index t 1 * win1_3.size 1 ≤ (j 1 : ℕ) ∧ (j 1 : ℕ) < win1_3.index t 1 * win1_3.size 1 + win1_3.xsize (grid1.coords t) 1
    rw [hi.2, show win1_3.size 1 = 1024 from rfl, show win1_3.xsize (grid1.coords t) 1 = 1024 from rfl]
    omega

/-- The output array after the region. -/
theorem final1 : (dat1 V c).arrAt 3 cfg1.N = G1 V c :=
  (dat1 V c).arrAt_eq_of_cover 3 (G1 V c) (flushed1_eq V c) (cover1)

/-- THE VALUE OF REGION 1's OUTPUT ARRAY, entry by entry. -/
theorem reg1_val (o' i' : Fin 4096) :
    (dat1 V c).arrAt 3 cfg1.N (ix2 o' i')
      = Ideal.div (∑ i : Fin 4096, rd2 (V c main_v6) i o' * rd2 (V c main_v1) i i') (rd2 (V c main_v3) (0 : Fin 1) i') :=
  (congrFun (final1 V c) (ix2 o' i')).trans (G1_apply V c o' i')

end Cert.Val

end
-- ==== Proof.Val.K2.lean ====
/-
  Region 2 of the program: the value its output array ends with, at the extended reals.

  The region is a blocked matrix product on an 8 x 4 x 4 grid of points (i, j, k), point number
  t = 16 i + 4 j + k.  At every point the body adds to a 1024 x 1024 accumulator the product of block
  (i, k) of the left factor with block (j, k) of the right factor, contracting the SECOND axis of both;
  the accumulator is cleared at k = 0, and at k = 3 the output block (i, j) receives the accumulator
  plus block j of a row vector, broadcast along the rows.  So entry (a, b) of output block (i, j) is
  zero plus the four block sums over k = 0, 1, 2, 3, added in that order, plus the row vector's entry,
  and a sum over the 4096 contracted indices is exactly those four consecutive block sums: entry
  (x, y) of the output array is (sum_l X (x, l) * W (y, l)) + bias (0, y).

  The file has four parts: what each control case of the body leaves (its one covering store's
  payload); the output buffer after the four points of one (i, j), at an entry; each input block read
  off its array; and the output array from the blocks the flushing points write back.
-/
import proofs.«120424_j76063870812747_2_alg».proof.Proof.KI.Reg2
import proofs.«120424_j76063870812747_2_alg».proof.Proof.Val.Pay
import proofs.«120424_j76063870812747_2_alg».proof.Proof.Val.Sums
import proofs.«120424_j76063870812747_2_alg».proof.Proof.Val.Rd
import Idealize.ShloMosaic.Lib.Pipeline.Value
import Idealize.ShloMosaic.Lib.Tactic

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

section pieces
variable {F : FTy → Type} [FloatOps F]

theorem hz2' : (![0, 0] : Fin 2 → Nat) = fun _ => 0 := funext fun a => by fin_cases a <;> rfl

/-- At the middle steps the accumulator ends at the step's payload of the two factor blocks and of what it held. -/
theorem sout2_B_eq (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .f32) (x1 : Vec F S1024x1024 .bf16) (x2 : Vec F S1x1024 .f32) (xs0 : Vec F S1024x1024 .f32) :
    sout2_B c i arg3 harg3 arg4 harg4 arg5 harg5 arg6 harg6 arg7 harg7 hc0 hc1 x0 x1 x2 xs0 = k2_pay2 x0 xs0 x1 := by
  unfold sout2_B
  rw [View.read_writes_eq_canon _ _ _ (scover2_B c i arg3 harg3 arg4 harg4 arg5 harg5 arg6 harg6 arg7 harg7 hc0 hc1 x0 x1 x2 xs0)]
  unfold kernelRun2_B
  dsimp only
  try sl_unfold_words
  rw [View.canon_unit_zero (S := S1024x1024) hz2']
  simp only [View.readAt_eq_ld, harg3.read_unread, harg4.read_unread, harg5.read_unread, harg7.read_unread,
    View.ld_unit_zero (S := S1024x1024) hz2', View.ld_unit_zero (S := S1x1024) hz2']

/-- At the first step the accumulator is cleared first: it ends at the step's payload over the zero tile. -/
theorem sout2_A_eq (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .f32) (x1 : Vec F S1024x1024 .bf16) (x2 : Vec F S1x1024 .f32) :
    sout2_A c i arg3 harg3 arg4 harg4 arg5 harg5 arg6 harg6 arg7 harg7 hc0 hc1 x0 x1 x2 = k2_pay2 x0 (k2_pay1 (F := F)) x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero (S := S1024x1024) hz2', View.readCov_unit_zero (S := S1024x1024) _ hz2']
  simp only [View.readAt_eq_ld, harg3.read_unread, harg4.read_unread, harg5.read_unread,
    View.ld_unit_zero (S := S1024x1024) hz2', View.ld_unit_zero (S := S1x1024) hz2']

/-- At the last step the accumulator ends at the step's payload, as at the middle steps, -/
theorem sout2_C_eq (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) :
    sout2_C c i arg3 harg3 arg4 harg4 arg5 harg5 arg6 harg6 arg7 harg7 hc0 hc1 x0 x1 x2 xs0 = k2_pay2 x0 xs0 x1 := by
  unfold sout2_C
  rw [View.read_writes_eq_canon _ _ _ (scover2_C c i arg3 harg3 arg4 harg4 arg5 harg5 arg6 harg6 arg7 harg7 hc0 hc1 x0 x1 x2 xs0)]
  unfold kernelRun2_C
  dsimp only
  sl_unfold_words
  rw [View.canon_unit_zero (S := S1024x1024) hz2']
  simp only [View.readAt_eq_ld, harg3.read_unread, harg4.read_unread, harg5.read_unread, harg7.read_unread,
    View.ld_unit_zero (S := S1024x1024) hz2', View.ld_unit_zero (S := S1x1024) hz2']

/-- and the output buffer receives the last payload of the accumulator just written and of the row vector's block. -/
theorem out2_C_eq (c : Dev nD) (i : grid2.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .f32) (x1 : Vec F S1024x1024 .bf16) (x2 : Vec F S1x1024 .f32) (xs0 : Vec F S1024x1024 .f32) :
    out2_C c i arg3 harg3 arg4 harg4 arg5 harg5 arg6 harg6 arg7 harg7 hc0 hc1 x0 x1 x2 xs0 = k2_pay3 (k2_pay2 x0 xs0 x1) x2 := by
  unfold out2_C
  rw [View.read_writes_eq_canon _ _ _ (cover2_C c i arg3 harg3 arg4 harg4 arg5 harg5 arg6 harg6 arg7 harg7 hc0 hc1 x0 x1 x2 xs0)]
  unfold kernelRun2_C
  dsimp only
  sl_unfold_words
  rw [View.canon_unit_zero (S := S1024x1024) hz2', View.readCov_unit_zero (S := S1024x1024) _ hz2']
  simp only [View.readAt_eq_ld, harg3.read_unread, harg4.read_unread, harg5.read_unread, harg7.read_unread,
    View.ld_unit_zero (S := S1024x1024) hz2', View.ld_unit_zero (S := S1x1024) hz2']

/-- The first step's piece lemma at a grid point, over that point's input blocks. -/
theorem sout2_A_at (V : (c : Dev nD) → (b : Ref sig .tc) → Buf (Elt F) ((c : Thread nD τ).loc b)) (c : Dev nD) (t : Fin cfg2.N)
    (hc0 : cond2_0 (grid2.coords t)) (hc1 : ¬cond2_1 (grid2.coords t)) :
    sout2_A c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t)
      = k2_pay2 (iblk2 V c 0 t) (k2_pay1 (F := F)) (iblk2 V c 1 t) :=
  sout2_A_eq c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t)

/-- A middle step's piece lemma at a grid point. -/
theorem sout2_B_at (V : (c : Dev nD) → (b : Ref sig .tc) → Buf (Elt F) ((c : Thread nD τ).loc b)) (c : Dev nD) (t : Fin cfg2.N)
    (hc0 : ¬cond2_0 (grid2.coords t)) (hc1 : ¬cond2_1 (grid2.coords t)) (xs0 : Vec F S1024x1024 .f32) :
    sout2_B c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0
      = k2_pay2 (iblk2 V c 0 t) xs0 (iblk2 V c 1 t) :=
  sout2_B_eq c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0

/-- The last step's piece lemmas at a grid point: the accumulator, -/
theorem sout2_C_at (V : (c : Dev nD) → (b : Ref sig .tc) → Buf (Elt F) ((c : Thread nD τ).loc b)) (c : Dev nD) (t : Fin cfg2.N)
    (hc0 : ¬cond2_0 (grid2.coords t)) (hc1 : cond2_1 (grid2.coords t)) (xs0 : Vec F S1024x1024 .f32) :
    sout2_C c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0
      = k2_pay2 (iblk2 V c 0 t) xs0 (iblk2 V c 1 t) :=
  sout2_C_eq c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0

/-- and the output buffer. -/
theorem out2_C_at (V : (c : Dev nD) → (b : Ref sig .tc) → Buf (Elt F) ((c : Thread nD τ).loc b)) (c : Dev nD) (t : Fin cfg2.N)
    (hc0 : ¬cond2_0 (grid2.coords t)) (hc1 : cond2_1 (grid2.coords t)) (xs0 : Vec F S1024x1024 .f32) :
    out2_C c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0
      = k2_pay3 (k2_pay2 (iblk2 V c 0 t) xs0 (iblk2 V c 1 t)) (iblk2 V c 2 t) :=
  out2_C_eq c (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) xs0

end pieces

/-! ## The output buffer after the points of one output block, at an entry -/

section value

variable (V : (c : Dev nD) → (b : Ref sig .tc) → Buf (Elt Ideal) ((c : Thread nD τ).loc b))

/-- The left factor's block the body finds at point `t`. -/
def tileX (c : Dev nD) (t : Fin cfg2.N) : Vec Ideal S1024x1024 .f32 := iblk2 V c 0 t
/-- The right factor's block at point `t`. -/
def tileW (c : Dev nD) (t : Fin cfg2.N) : Vec Ideal S1024x1024 .bf16 := iblk2 V c 1 t
/-- The row vector's block at point `t`. -/
def tileB (c : Dev nD) (t : Fin cfg2.N) : Vec Ideal S1x1024 .f32 := iblk2 V c 2 t

/-- What point `t` adds to entry `(a, b)` of the accumulator: the block product's entry, both second axes contracted. -/
def stepSum2 (c : Dev nD) (t : Fin cfg2.N) (a b : Fin 1024) : EReal :=
  ∑ l : Fin 1024, tileX V c t (ix2 a l) * tileW V c t (ix2 b l)

/-- At a point with k = 0 the accumulator ends at zero plus the point's block product. -/
theorem acc2_first (c : Dev nD) (n : ℕ) (h : n < cfg2.N) (h0 : n % 4 = 0) (a b : Fin 1024) :
    (outsAt2 V c n h).2 (ix2 a b) = 0 + stepSum2 V c ⟨n, h⟩ a b := by
  rw [outsAt2_A V c ⟨n, h⟩ h0]
  dsimp only
  rw [sout2_A_at V c ⟨n, h⟩]
  refine (pay2 _ _ _ a b).trans ?_
  rw [pay2z]
  rfl

/-- At a point with k ≠ 0 it ends at what the point before left plus the point's block product. -/
theorem acc2_next (c : Dev nD) (n : ℕ) (h : n + 1 < cfg2.N) (h0 : ¬(n + 1) % 4 = 0) (a b : Fin 1024) :
    (outsAt2 V c (n + 1) h).2 (ix2 a b)
      = (outsAt2 V c n (Nat.lt_of_succ_lt h)).2 (ix2 a b) + stepSum2 V c ⟨n + 1, h⟩ a b := by
  by_cases h1 : (n + 1) % 4 = 3
  · rw [outsAt2_C V c ⟨n + 1, h⟩ h0 h1]
    dsimp only
    rw [sout2_C_at V c ⟨n + 1, h⟩]
    exact pay2 _ _ _ a b
  · rw [outsAt2_B V c ⟨n + 1, h⟩ h0 h1]
    dsimp only
    rw [sout2_B_at V c ⟨n + 1, h⟩]
    exact pay2 _ _ _ a b

/-- At a point with k = 3 the output buffer receives what the accumulator ends with plus the row vector's entry. -/
theorem out2_eq_acc (c : Dev nD) (n : ℕ) (h : n + 1 < cfg2.N) (h1 : (n + 1) % 4 = 3) (a b : Fin 1024) :
    (outsAt2 V c (n + 1) h).1 (ix2 a b)
      = (outsAt2 V c (n + 1) h).2 (ix2 a b) + tileB V c ⟨n + 1, h⟩ (ix2 (0 : Fin 1) b) := by
  have h0 : ¬(n + 1) % 4 = 0 := by omega
  rw [outsAt2_C V c ⟨n + 1, h⟩ h0 h1]
  dsimp only
  rw [sout2_C_at V c ⟨n + 1, h⟩, out2_C_at V c ⟨n + 1, h⟩]
  exact pay2b _ _ a b

/-- After the four points `n, n + 1, n + 2, n + 3` of one output block (`n` a multiple of 4) the output buffer
    holds, at an entry, zero plus the four block products' entries added in the points' order, plus the row
    vector's entry. -/
theorem out2_last (c : Dev nD) (n : ℕ) (h : n + 3 < cfg2.N) (h0 : n % 4 = 0) (a b : Fin 1024) :
    (outsAt2 V c (n + 3) h).1 (ix2 a b)
      = ((((0 + stepSum2 V c ⟨n, by omega⟩ a b) + stepSum2 V c ⟨n + 1, by omega⟩ a b)
          + stepSum2 V c ⟨n + 2, by omega⟩ a b) + stepSum2 V c ⟨n + 3, h⟩ a b)
        + tileB V c ⟨n + 3, h⟩ (ix2 (0 : Fin 1) b) := by
  rw [out2_eq_acc V c (n + 2) h (by omega) a b, acc2_next V c (n + 2) h (by omega) a b,
    acc2_next V c (n + 1) (by omega) (by omega) a b, acc2_next V c n (by omega) (by omega) a b,
    acc2_first V c n (by omega) h0 a b]

/-! ## Each input block, read off its array -/

/-- The printed index maps over the grid: point `t = 16 i + 4 j + k` reads block `(i, k)` of the left factor, block
    `(j, k)` of the right factor and block `(0, j)` of the row vector, and writes block `(i, j)`. -/
theorem idx_facts2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-- Entry `(a, l)` of the left factor's block at point `t = 16 i + 4 j + k` is entry `(1024 i + a, 1024 k + l)` of the
    left factor. -/
theorem tileX_apply (c : Dev nD) (t : Fin cfg2.N) (a l : Fin 1024) (r : Fin 8192) (s : Fin 4096)
    (hr : r.val = t.val / 16 * 1024 + a.val) (hs : s.val = t.val % 4 * 1024 + l.val) :
    tileX V c t (ix2 a l) = rd2 (V c main_v5) r s := by
  obtain ⟨e0, e1, -⟩ := idx_facts2 t
  unfold tileX iblk2
  show V c main_v5 (((cfg2.win 0).blk t).view.emb (ix2 a l)) = V c main_v5 (ix2 r s)
  refine congrArg _ ?_
  funext d; apply Fin.ext
  match d with
  | ⟨0, _⟩ => show win2_0.index t (0 : Fin 2) * 1024 + 1 * a.val = r.val; rw [e0, hr]; omega
  | ⟨1, _⟩ => show win2_0.index t (1 : Fin 2) * 1024 + 1 * l.val = s.val; rw [e1, hs]; omega

/-- Entry `(b, l)` of the right factor's block at point `t = 16 i + 4 j + k` is entry `(1024 j + b, 1024 k + l)` of the
    right factor. -/
theorem tileW_apply (c : Dev nD) (t : Fin cfg2.N) (b l : Fin 1024) (r s : Fin 4096)
    (hr : r.val = t.val / 4 % 4 * 1024 + b.val) (hs : s.val = t.val % 4 * 1024 + l.val) :
    tileW V c t (ix2 b l) = rd2 (V c main_v7) r s := by
  obtain ⟨-, -, e2, e3, -⟩ := idx_facts2 t
  unfold tileW iblk2
  show V c main_v7 (((cfg2.win 1).blk t).view.emb (ix2 b l)) = V c main_v7 (ix2 r s)
  refine congrArg _ ?_
  funext d; apply Fin.ext
  match d with
  | ⟨0, _⟩ => show win2_1.index t (0 : Fin 2) * 1024 + 1 * b.val = r.val; rw [e2, hr]; omega
  | ⟨1, _⟩ => show win2_1.index t (1 : Fin 2) * 1024 + 1 * l.val = s.val; rw [e3, hs]; omega

/-- Entry `(0, b)` of the row vector's block at point `t = 16 i + 4 j + k` is entry `(0, 1024 j + b)` of the row vector. -/
theorem tileB_apply (c : Dev nD) (t : Fin cfg2.N) (b : Fin 1024) (s : Fin 4096)
    (hs : s.val = t.val / 4 % 4 * 1024 + b.val) :
    tileB V c t (ix2 (0 : Fin 1) b) = rd2 (V c main_v4) (0 : Fin 1) s := by
  obtain ⟨-, -, -, -, e4, e5, -⟩ := idx_facts2 t
  unfold tileB iblk2
  show V c main_v4 (((cfg2.win 2).blk t).view.emb (ix2 (0 : Fin 1) b)) = V c main_v4 (ix2 (0 : Fin 1) s)
  refine congrArg _ ?_
  funext d; apply Fin.ext
  match d with
  | ⟨0, _⟩ => show win2_2.index t (0 : Fin 2) * 1 + 1 * 0 = 0; rw [e4]
  | ⟨1, _⟩ => show win2_2.index t (1 : Fin 2) * 1024 + 1 * b.val = s.val; rw [e5, hs]; omega

/-- So the block product's entry at point `t` is the sum over block `k` of the contracted indices, in the arrays'
    own coordinates. -/
theorem stepSum2_eq (c : Dev nD) (t : Fin cfg2.N) (a b : Fin 1024) (x : Fin 8192) (y : Fin 4096) (kk : Fin 4)
    (hx : x.val = t.val / 16 * 1024 + a.val) (hy : y.val = t.val / 4 % 4 * 1024 + b.val) (hk : kk.val = t.val % 4) :
    stepSum2 V c t a b
      = ∑ l : Fin 1024, rd2 (V c main_v5) x (Cert.Spec.blk kk l) * rd2 (V c main_v7) y (Cert.Spec.blk kk l) := by
  unfold stepSum2
  refine Finset.sum_congr rfl fun l _ => ?_
  rw [tileX_apply V c t a l x (Cert.Spec.blk kk l) hx (by rw [Cert.Spec.blk_val, hk]),
    tileW_apply V c t b l y (Cert.Spec.blk kk l) hy (by rw [Cert.Spec.blk_val, hk])]

/-! ## From the blocks to the array -/

/-- What the region computes, over curried literal coordinates: the left factor times the transposed right factor,
    plus the row vector on every row. -/
def prod2 (c : Dev nD) (x : Fin 8192) (y : Fin 4096) : EReal :=
  (∑ l : Fin 4096, rd2 (V c main_v5) x l * rd2 (V c main_v7) y l) + rd2 (V c main_v4) (0 : Fin 1) y

/-- The same as contents of the output array. -/
def G2 (c : Dev nD) : S8192x4096.Idx → EReal :=
  fun j => prod2 V c ⟨(j 0).val, (j 0).isLt⟩ ⟨(j 1).val, (j 1).isLt⟩

theorem G2_apply (c : Dev nD) (j : S8192x4096.Idx) (x : Fin 8192) (y : Fin 4096) (hx : (j 0).val = x.val) (hy : (j 1).val = y.val) :
    G2 V c j = prod2 V c x y := by
  unfold G2
  rw [show (⟨(j 0).val, (j 0).isLt⟩ : Fin 8192) = x from Fin.ext hx, show (⟨(j 1).val, (j 1).isLt⟩ : Fin 4096) = y from Fin.ext hy]

/-- What a flushing point writes back is its block of that array: the accumulated four block sums are the sum
    over all 4096 contracted indices. -/
theorem flushed2_eq (c : Dev nD) (t : Fin cfg2.N) (hf : (cfg2.win 3).flush t = true) :
    (dat2 V c).flushed 3 t = ((cfg2.win 3).blk t).view.read (Elt Ideal) (G2 V c) := by
  have h3 : t.val % 4 = 3 := (flush2_3 t).mp hf
  have hN : cfg2.N = 128 := N_2
  obtain ⟨tv, tlt⟩ := t
  obtain ⟨n, rfl⟩ : ∃ n, tv = n + 3 := ⟨tv - 3, by dsimp only at h3; omega⟩
  have h0 : n % 4 = 0 := by dsimp only at h3; omega
  obtain ⟨-, -, -, -, -, -, e6, e7⟩ := idx_facts2 ⟨n + 3, tlt⟩
  dsimp only at e6 e7
  show (cfg2.win 3).cut (grid2.coords ⟨n + 3, tlt⟩) ((dat2 V c).after 3 ⟨n + 3, tlt⟩) = _
  rw [after2_3]
  funext j
  obtain ⟨a, b, rfl⟩ : ∃ (a b : Fin 1024), j = ix2 a b := ⟨j 0, j 1, eq_ix2 j⟩
  show (outsAt2 V c (n + 3) tlt).1 (ix2 a b) = G2 V c (((cfg2.win 3).blk ⟨n + 3, tlt⟩).view.emb (ix2 a b))
  have ha : a.val < 1024 := a.isLt
  have hb : b.val < 1024 := b.isLt
  rw [out2_last V c n tlt h0 a b,
    G2_apply V c _ ⟨(n + 3) / 16 * 1024 + a.val, by omega⟩ ⟨(n + 3) / 4 % 4 * 1024 + b.val, by omega⟩
      (by show win2_3.index ⟨n + 3, tlt⟩ (0 : Fin 2) * 1024 + 1 * a.val = (n + 3) / 16 * 1024 + a.val; rw [e6]; omega)
      (by show win2_3.index ⟨n + 3, tlt⟩ (1 : Fin 2) * 1024 + 1 * b.val = (n + 3) / 4 % 4 * 1024 + b.val; rw [e7]; omega)]
  unfold prod2
  rw [Cert.Spec.sum_four_blk,
    stepSum2_eq V c ⟨n, by omega⟩ a b ⟨(n + 3) / 16 * 1024 + a.val, by omega⟩ ⟨(n + 3) / 4 % 4 * 1024 + b.val, by omega⟩ 0
      (by dsimp only; try omega) (by dsimp only; try omega) (by dsimp only; try omega),
    stepSum2_eq V c ⟨n + 1, by omega⟩ a b ⟨(n + 3) / 16 * 1024 + a.val, by omega⟩ ⟨(n + 3) / 4 % 4 * 1024 + b.val, by omega⟩ 1
      (by dsimp only; try omega) (by dsimp only; try omega) (by dsimp only; try omega),
    stepSum2_eq V c ⟨n + 2, by omega⟩ a b ⟨(n + 3) / 16 * 1024 + a.val, by omega⟩ ⟨(n + 3) / 4 % 4 * 1024 + b.val, by omega⟩ 2
      (by dsimp only; try omega) (by dsimp only; try omega) (by dsimp only; try omega),
    stepSum2_eq V c ⟨n + 3, tlt⟩ a b ⟨(n + 3) / 16 * 1024 + a.val, by omega⟩ ⟨(n + 3) / 4 % 4 * 1024 + b.val, by omega⟩ 3
      (by dsimp only; try omega) (by dsimp only; try omega) (by dsimp only; try omega),
    tileB_apply V c ⟨n + 3, tlt⟩ b ⟨(n + 3) / 4 % 4 * 1024 + b.val, by omega⟩ (by dsimp only; try omega)]

/-- Every entry of the output array is in the block of the flushing point of its block row and block column. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have hN : cfg2.N = 128 := N_2
  have h0 : (i 0 : Nat) < 8192 := (i 0).isLt
  have h1 : (i 1 : Nat) < 4096 := (i 1).isLt
  obtain ⟨t, ht⟩ : ∃ t : Fin cfg2.N, t.val = (i 0 : Nat) / 1024 * 16 + (i 1 : Nat) / 1024 * 4 + 3 :=
    ⟨⟨(i 0 : Nat) / 1024 * 16 + (i 1 : Nat) / 1024 * 4 + 3, by omega⟩, rfl⟩
  obtain ⟨-, -, -, -, -, -, e6, e7⟩ := idx_facts2 t
  refine ⟨t, (flush2_3 t).mpr (by omega), ?_⟩
  show i ∈ ((View.whole main_v8).slice (win2_3.rect t)).set
  rw [View.set_slice_whole, Rect.mem_set_unit]
  intro a
  match a with
  | ⟨0, _⟩ =>
    show win2_3.index t (0 : Fin 2) * 1024 ≤ (i 0 : Nat) ∧ (i 0 : Nat) < win2_3.index t (0 : Fin 2) * 1024 + 1024
    rw [e6]; omega
  | ⟨1, _⟩ =>
    show win2_3.index t (1 : Fin 2) * 1024 ≤ (i 1 : Nat) ∧ (i 1 : Nat) < win2_3.index t (1 : Fin 2) * 1024 + 1024
    rw [e7]; omega

/-- The output array of the region after its run. -/
theorem final2 (c : Dev nD) : (dat2 V c).arrAt 3 cfg2.N = G2 V c :=
  (dat2 V c).arrAt_eq_of_cover 3 (G2 V c) (flushed2_eq V c) (cover2 c)

/-- Entry `(x, o')` of the region's output array after its run: `(sum_l X (x, l) * W (o', l)) + bias (0, o')`. -/
theorem reg2_val (c : Dev nD) (x : Fin 8192) (o' : Fin 4096) :
    (dat2 V c).arrAt 3 cfg2.N (ix2 x o')
      = (∑ i' : Fin 4096, rd2 (V c main_v5) x i' * rd2 (V c main_v7) o' i') + rd2 (V c main_v4) (0 : Fin 1) o' := by
  rw [final2 V c]
  exact G2_apply V c (ix2 x o') x o' rfl rfl

end value
end Cert.Val
end
-- ==== Proof.Val.Alg.lean ====
/-
  The two idealized programs end with equal results. The kernel program's result at (b, t, o') is the specification's
  value (its three regions' arrays substituted into one another); the reference's is the same value (its operations
  read at an index); so the kernel's result array is the witness.
-/
import proofs.«120424_j76063870812747_2_alg».proof.Defs
import proofs.«120424_j76063870812747_2_alg».proof.Proof.Gen.KernelIdeal
import proofs.«120424_j76063870812747_2_alg».proof.Proof.Gen.ReferenceIdeal
import proofs.«120424_j76063870812747_2_alg».proof.Proof.Gen.Pre_finite_inputs
import proofs.«120424_j76063870812747_2_alg».proof.Proof.Gen.ReferenceIdeal.Run
import proofs.«120424_j76063870812747_2_alg».proof.Proof.Gen.ReferenceIdeal.Read
import proofs.«120424_j76063870812747_2_alg».proof.Proof.Val.Glue
import proofs.«120424_j76063870812747_2_alg».proof.Proof.Val.Rd
import proofs.«120424_j76063870812747_2_alg».proof.Proof.Val.Ref
import proofs.«120424_j76063870812747_2_alg».proof.Proof.Val.K0
import proofs.«120424_j76063870812747_2_alg».proof.Proof.Val.K1
import proofs.«120424_j76063870812747_2_alg».proof.Proof.Val.K2

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (ρ : Dev nD → PrngReg)

/-- The arguments as the specification takes them. -/
abbrev aX (c : Dev nD) : Fin 4 → Fin 2048 → Fin 4096 → EReal := fun b t i => m ((c.tc : Thread nD τ).loc main_arg0) (ix3 b t i)
abbrev aQ (c : Dev nD) : Fin 4096 → Fin 4096 → BitVec 32 := fun i o => m ((c.tc : Thread nD τ).loc main_arg1) (ix2 i o)
abbrev aS (c : Dev nD) : EReal := m ((c.tc : Thread nD τ).loc main_arg2) ix0
abbrev aU (c : Dev nD) : Fin 4096 → Fin 4096 → EReal := fun a b => m ((c.tc : Thread nD τ).loc main_arg5) (ix2 a b)
abbrev aV (c : Dev nD) : Fin 4096 → Fin 4096 → EReal := fun a b => m ((c.tc : Thread nD τ).loc main_arg6) (ix2 a b)
abbrev aW (c : Dev nD) : Fin 4096 → EReal := fun i => m ((c.tc : Thread nD τ).loc main_arg3) (ix1 i)
abbrev aB (c : Dev nD) : Fin 4096 → EReal := fun o => m ((c.tc : Thread nD τ).loc main_arg4) (ix1 o)

/-- The first region's array: the dequantised weight times U. -/
theorem first_is_R2 (c : Dev nD) (i o' : Fin 4096) :
    rd2 (Wa2 m ρ c (Proc.devRef .tc main_v6)) i o' = Cert.Spec.R2 (aQ m c) (aS m c) (aU m c) i o' := by
  unfold rd2
  rw [show Wa2 m ρ c (Proc.devRef .tc main_v6) = (dat0 (Va1 m ρ) c).arrAt 3 cfg0.N from Wa2_arr m ρ c 3]
  rw [reg0_val]
  unfold Cert.Spec.R2
  refine Finset.sum_congr rfl fun o _ => ?_
  show Cert.Spec.deq (Wa1 m ρ c (Proc.devRef .tc main_arg1) (ix2 i o)) (Wa1 m ρ c (Proc.devRef .tc main_v2) (ix2 (0 : Fin 1) (0 : Fin 1))) * (Wa1 m ρ c (Proc.devRef .tc main_v0) (ix2 o o') : EReal) = _
  rw [a1_eq, v2_apply, v0_apply]

/-- The second region's array: that product, read by its transpose, times V, divided by the column scales. -/
theorem second_is_Wt (c : Dev nD) (o' i' : Fin 4096) :
    Wa3 m ρ c (Proc.devRef .tc main_v7) (ix2 o' i') = Cert.Spec.Wt (aQ m c) (aS m c) (aU m c) (aV m c) (aW m c) o' i' := by
  rw [show Wa3 m ρ c (Proc.devRef .tc main_v7) = (dat1 (Va2 m ρ) c).arrAt 3 cfg1.N from Wa3_arr m ρ c 3]
  rw [reg1_val]
  unfold Cert.Spec.Wt
  have hden : rd2 (Va2 m ρ c main_v3) (0 : Fin 1) i' = aW m c i' := by
    show Wa2 m ρ c (Proc.devRef .tc main_v3) (ix2 (0 : Fin 1) i') = _
    rw [Wa2_of_ne m ρ c main_v3 (by decide)]
    exact v3_apply m ρ c i'
  rw [hden]
  refine congrArg (fun z => Ideal.div z (aW m c i')) (Finset.sum_congr rfl fun i _ => ?_)
  show rd2 (Wa2 m ρ c (Proc.devRef .tc main_v6)) i o' * rd2 (Wa2 m ρ c (Proc.devRef .tc main_v1)) i i' = _
  rw [first_is_R2 m ρ c i o']
  unfold rd2
  rw [Wa2_of_ne m ρ c main_v1 (by decide), v1_apply]

/-- The kernel program's result. -/
theorem kernel_out (c : Dev nD) (b : Fin 4) (t : Fin 2048) (o' : Fin 4096) :
    Wa5 m ρ c (Proc.devRef .tc main_v9) (ix3 b t o') = Cert.Spec.Out (aX m c) (aQ m c) (aS m c) (aU m c) (aV m c) (aW m c) (aB m c) b t o' := by
  rw [v9_apply]
  rw [show Wa4 m ρ c (Proc.devRef .tc main_v8) = (dat2 (Va3 m ρ) c).arrAt 3 cfg2.N from Wa4_arr m ρ c 3]
  rw [reg2_val]
  unfold Cert.Spec.Out
  have hb : rd2 (Va3 m ρ c main_v4) (0 : Fin 1) o' = aB m c o' := by
    show Wa3 m ρ c (Proc.devRef .tc main_v4) (ix2 (0 : Fin 1) o') = _
    rw [Wa3_of_ne m ρ c main_v4 (by decide), Wa2_of_ne m ρ c main_v4 (by decide)]
    exact v4_apply m ρ c o'
  rw [hb]
  refine congrArg (fun z => z + aB m c o') (Finset.sum_congr rfl fun i' _ => ?_)
  show rd2 (Wa3 m ρ c (Proc.devRef .tc main_v5)) (flatRow b t) i' * rd2 (Wa3 m ρ c (Proc.devRef .tc main_v7)) o' i' = _
  unfold rd2
  rw [second_is_Wt m ρ c o' i', Wa3_of_ne m ρ c main_v5 (by decide), Wa2_of_ne m ρ c main_v5 (by decide), v5_apply]

end Cert.Val

namespace Cert.Val

open Idealize.ShloMosaic Idealize.ShloMosaic.TcCoe Idealize.SL.Sem Idealize.ShloMosaic.ValueIdx

/-- Both idealized programs run, end with the arguments unchanged, and end with equal results: the kernel program's
    result array, which is the specification's value entry by entry, as is the reference's. -/
theorem algebraic : Cert.algebraic_KernelIdeal_ReferenceIdeal := by
  intro m ρ m' ρ' _ hagree
  refine ⟨fun c => Cert.KernelIdeal.Hand.Wa5 m ρ c (Proc.devRef .tc Cert.KernelIdeal.main_v9), ?_, ?_⟩
  · exact (θ_run Cert.KernelIdeal.defs _ _).mono (fun r h c =>
      ⟨h c _ (Cert.KernelIdeal.Hand.mem_ucH Cert.KernelIdeal.main_v9 (by decide)),
       (h c _ (Cert.KernelIdeal.Hand.mem_ucH Cert.KernelIdeal.main_arg0 (by decide))).trans (Cert.KernelIdeal.Hand.Wa5_main_arg0 m ρ c),
       (h c _ (Cert.KernelIdeal.Hand.mem_ucH Cert.KernelIdeal.main_arg1 (by decide))).trans (Cert.KernelIdeal.Hand.Wa5_main_arg1 m ρ c),
       (h c _ (Cert.KernelIdeal.Hand.mem_ucH Cert.KernelIdeal.main_arg2 (by decide))).trans (Cert.KernelIdeal.Hand.Wa5_main_arg2 m ρ c),
       (h c _ (Cert.KernelIdeal.Hand.mem_ucH Cert.KernelIdeal.main_arg3 (by decide))).trans (Cert.KernelIdeal.Hand.Wa5_main_arg3 m ρ c),
       (h c _ (Cert.KernelIdeal.Hand.mem_ucH Cert.KernelIdeal.main_arg4 (by decide))).trans (Cert.KernelIdeal.Hand.Wa5_main_arg4 m ρ c),
       (h c _ (Cert.KernelIdeal.Hand.mem_ucH Cert.KernelIdeal.main_arg5 (by decide))).trans (Cert.KernelIdeal.Hand.Wa5_main_arg5 m ρ c),
       (h c _ (Cert.KernelIdeal.Hand.mem_ucH Cert.KernelIdeal.main_arg6 (by decide))).trans (Cert.KernelIdeal.Hand.Wa5_main_arg6 m ρ c)⟩)
      (Cert.KernelIdeal.Hand.run_mainH m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]
    funext j
    obtain ⟨b, t, o, rfl⟩ : ∃ (b : Fin 4) (t : Fin 2048) (o : Fin 4096), j = ix3 b t o := ⟨j 0, j 1, j 2, eq_ix3 j⟩
    refine Eq.trans ?_ (kernel_out m ρ c b t o).symm
    rw [Cert.ReferenceIdeal.Read.val_main_v19_eq]
    exact Cert.Val.Ref.ref_is_out _ _ _ _ _ _ _ b t o

end Cert.Val

end
-- ==== Proof.lean ====
/-
  The certificate's claim. The kernel program is three blocked matrix products in sequence — the dequantised weight
  times U, that product (read by its transpose) times V and divided by the column scales, and the activations times
  the result plus the bias — each accumulating over four blocks of the contracted axis in a buffer it keeps between
  grid points. Its frame (at the word level and at the extended reals) is the run of its five items as segments; the
  reference's frame is its run. At the extended reals both programs compute, entry by entry,
    out[b,s,o'] = Σ_i' x[b,s,i'] · ((Σ_i (Σ_o deq(q[i,o]) · U[o,o']) · V[i,i']) / scaleWH[i']) + bias[o'],
  the kernel's blocked sums being the whole sums regrouped, and the reference's U[o,o'] · deq(q[i,o]) the same product
  commuted; no finiteness of the inputs is used.
-/
import proofs.«120424_j76063870812747_2_alg».proof.Defs
import proofs.«120424_j76063870812747_2_alg».proof.Proof.Gen.Kernel
import proofs.«120424_j76063870812747_2_alg».proof.Proof.Gen.KernelIdeal
import proofs.«120424_j76063870812747_2_alg».proof.Proof.Gen.ReferenceIdeal
import proofs.«120424_j76063870812747_2_alg».proof.Proof.Gen.ReferenceIdeal.Run
import proofs.«120424_j76063870812747_2_alg».proof.Proof.Gen.Pre_finite_inputs
import proofs.«120424_j76063870812747_2_alg».proof.Proof.K.Main
import proofs.«120424_j76063870812747_2_alg».proof.Proof.KI.Main
import proofs.«120424_j76063870812747_2_alg».proof.Proof.Val.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frameH m ρ,
  fun m ρ _ => Cert.KernelIdeal.Hand.frameH m ρ,
  fun m ρ _ => (θ_run Cert.ReferenceIdeal.defs _ _).mono (fun _ h c => (h c).2) (Cert.ReferenceIdeal.Value.run (F := Ideal) m ρ),
  trivial,
  Cert.Val.algebraic⟩

end Cert.Proof

end
